-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S16x128 : Shape := ⟨2, ![16, 128]⟩
abbrev S16x32x128 : Shape := ⟨3, ![16, 32, 128]⟩
abbrev S16x32 : Shape := ⟨2, ![16, 32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S16x32x128 : S_.BroadcastsInDim S16x32x128 (![] : Fin 0 → Fin S16x32x128.rank)
  reducesTo_S16x32x128_S_d0_1_2 : S16x32x128.ReducesTo [0, 1, 2] S_
  bcast_S_S16x32 : S_.BroadcastsInDim S16x32 (![] : Fin 0 → Fin S16x32.rank)
  reducesTo_S16x32_S_d0_1 : S16x32.ReducesTo [0, 1] S_

variable [Facts]

def fn_part1 {F : FTy → Type} [FloatOps F] (main_arg2 : FVec F S16x128 .f32) (main_arg4 : FVec F S16x32 .f32) (main_v13 : IVec S_ 1) (main_v16 : IVec S16x32x128 1) : IVec S_ 1 :=
  let main_c_5 : IVec S_ 1 := constantI S_ 1 1#1
  let main_v17 : IVec S_ 1 := (fun x v => Host.reduce IntOp.andi x v reducesTo_S16x32x128_S_d0_1_2 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_cst_8 : FVec F S_ .f32 := constant S_ .f32 0x00000000#32
  let main_v24 : FVec F S16x128 .f32 := broadcastInDim S16x128 ![] bcast_S_S16x128 main_cst_8
  let main_v25 : IVec S16x128 1 := cmpf .une main_arg2 main_v24
  let main_c_9 : IVec S_ 1 := constantI S_ 1 1#1
  let main_v26 : IVec S_ 1 := (fun x v => Host.reduce IntOp.andi x v reducesTo_S16x128_S_d0_1 h_S_) main_v25 main_c_9
  let main_v27 : IVec S_ 1 := andi main_v23 main_v26
  main_v27

def fn {F : FTy → Type} [FloatOps F] (main_arg0 : FVec F S50000x128 .f32) (main_arg1 : FVec F S16x128 .f32) (main_arg2 : FVec F S16x128 .f32) (main_arg3 : FVec F S16x32x128 .f32) (main_arg4 : FVec F S16x32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S16x32x128 .f32 := Host.absf main_arg3
  let main_cst_4 : FVec F S_ .f32 := constant S_ .f32 0x7F800000#32
  let main_v15 : FVec F S16x32x128 .f32 := broadcastInDim S16x32x128 ![] bcast_S_S16x32x128 main_cst_4
  let main_v16 : IVec S16x32x128 1 := cmpf .olt main_v14 main_v15
  fn_part1 (F := F) main_arg2 main_arg4 main_v13 main_v16
-- ==== Kernel.lean ====
abbrev S50000x128 : Shape := ⟨2, ![50000, 128]⟩
abbrev S16x128 : Shape := ⟨2, ![16, 128]⟩
abbrev S16x32x128 : Shape := ⟨3, ![16, 32, 128]⟩
abbrev S16x32 : Shape := ⟨2, ![16, 32]⟩
abbrev S_ : Shape := ⟨0, ![]⟩
abbrev S16 : Shape := ⟨1, ![16]⟩
abbrev S16x1 : Shape := ⟨2, ![16, 1]⟩
abbrev S1x16 : Shape := ⟨2, ![1, 16]⟩
abbrev S128x16 : Shape := ⟨2, ![128, 16]⟩
abbrev S256x16 : Shape := ⟨2, ![256, 16]⟩
abbrev S128x16x32 : Shape := ⟨3, ![128, 16, 32]⟩
abbrev S128x512 : Shape := ⟨2, ![128, 512]⟩
abbrev S1x512 : Shape := ⟨2, ![1, 512]⟩
abbrev S16x16 : Shape := ⟨2, ![16, 16]⟩
abbrev S16x16x32 : Shape := ⟨3, ![16, 16, 32]⟩
abbrev S16x512 : Shape := ⟨2, ![16, 512]⟩
abbrev S32x32 : Shape := ⟨2, ![32, 32]⟩
abbrev S1x32x1x32 : Shape := ⟨4, ![1, 32, 1, 32]⟩
abbrev S16x32x1x32 : Shape := ⟨4, ![16, 32, 1, 32]⟩
abbrev S512x32 : Shape := ⟨2, ![512, 32]⟩
abbrev S50000x32 : Shape := ⟨2, ![50000, 32]⟩
abbrev S2000x128 : Shape := ⟨2, ![2000, 128]⟩
abbrev S2000x32 : Shape := ⟨2, ![2000, 32]⟩
abbrev S2000x256 : Shape := ⟨2, ![2000, 256]⟩
abbrev S2000x16 : Shape := ⟨2, ![2000, 16]⟩
abbrev S2000 : Shape := ⟨1, ![2000]⟩
abbrev S2000x1 : Shape := ⟨2, ![2000, 1]⟩
abbrev S2000x512 : Shape := ⟨2, ![2000, 512]⟩

abbrev nBuf : Space → Nat
  | .hbm => 46
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S16x128, .f32⟩
  | .hbm, ⟨2, _⟩ => ⟨S16x128, .f32⟩
  | .hbm, ⟨3, _⟩ => ⟨S16x32x128, .f32⟩
  | .hbm, ⟨4, _⟩ => ⟨S16x32, .f32⟩
  | .hbm, ⟨5, _⟩ => ⟨S16x128, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16, .f32⟩
  | .hbm, ⟨13, _⟩ => ⟨S16x1, .f32⟩
  | .hbm, ⟨14, _⟩ => ⟨S1x16, .f32⟩
  | .hbm, ⟨15, _⟩ => ⟨S128x16, .f32⟩
  | .hbm, ⟨16, _⟩ => ⟨S16x128, .f32⟩
  | .hbm, ⟨17, _⟩ => ⟨S128x16, .f32⟩
  | .hbm, ⟨18, _⟩ => ⟨S_, .f32⟩
  | .hbm, ⟨19, _⟩ => ⟨S128x16, .f32⟩
  | .hbm, ⟨20, _⟩ => ⟨S128x16, .f32⟩
  | .hbm, ⟨21, _⟩ => ⟨S256x16, .f32⟩
  | .hbm, ⟨22, _⟩ => ⟨S128x16x32, .f32⟩
  | .hbm, ⟨23, _⟩ => ⟨S128x512, .f32⟩
  | .hbm, ⟨24, _⟩ => ⟨S128x512, .bf16⟩
  | .hbm, ⟨25, _⟩ => ⟨S1x512, .f32⟩
  | .hbm, ⟨26, _⟩ => ⟨S16x16, .i32⟩
  | .hbm, ⟨27, _⟩ => ⟨S16x16, .i32⟩
  | .hbm, ⟨28, _⟩ => ⟨S_, .i32⟩
  | .hbm, ⟨29, _⟩ => ⟨S16x16, .i32⟩
  | .hbm, ⟨30, _⟩ => ⟨S16x16, .i32⟩
  | .hbm, ⟨31, _⟩ => ⟨S16x16, .i1⟩
  | .hbm, ⟨32, _⟩ => ⟨S16x16, .f32⟩
  | .hbm, ⟨33, _⟩ => ⟨S16x16x32, .f32⟩
  | .hbm, ⟨34, _⟩ => ⟨S16x512, .f32⟩
  | .hbm, ⟨35, _⟩ => ⟨S32x32, .i32⟩
  | .hbm, ⟨36, _⟩ => ⟨S32x32, .i32⟩
  | .hbm, ⟨37, _⟩ => ⟨S_, .i32⟩
  | .hbm, ⟨38, _⟩ => ⟨S32x32, .i32⟩
  | .hbm, ⟨39, _⟩ => ⟨S32x32, .i32⟩
  | .hbm, ⟨40, _⟩ => ⟨S32x32, .i1⟩
  | .hbm, ⟨41, _⟩ => ⟨S32x32, .f32⟩
  | .hbm, ⟨42, _⟩ => ⟨S1x32x1x32, .f32⟩
  | .hbm, ⟨43, _⟩ => ⟨S16x32x1x32, .f32⟩
  | .hbm, ⟨44, _⟩ => ⟨S512x32, .f32⟩
  | .hbm, ⟨45, _⟩ => ⟨S50000x32, .f32⟩
  | .local _ .vmem, ⟨0, _⟩ => ⟨S2000x128, .f32⟩
  | .local _ .vmem, ⟨1, _⟩ => ⟨S2000x128, .f32⟩
  | .local _ .vmem, ⟨2, _⟩ => ⟨S256x16, .f32⟩
  | .local _ .vmem, ⟨3, _⟩ => ⟨S1x16, .f32⟩
  | .local _ .vmem, ⟨4, _⟩ => ⟨S128x512, .bf16⟩
  | .local _ .vmem, ⟨5, _⟩ => ⟨S1x512, .f32⟩
  | .local _ .vmem, ⟨6, _⟩ => ⟨S16x512, .f32⟩
  | .local _ .vmem, ⟨7, _⟩ => ⟨S512x32, .f32⟩
  | .local _ .vmem, ⟨8, _⟩ => ⟨S2000x32, .f32⟩
  | .local _ .vmem, ⟨9, _⟩ => ⟨S2000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S16x128 : S_.BroadcastsInDim S16x128 (![] : Fin 0 → Fin S16x128.rank)
  reducesTo_S16x128_S16_d1 : S16x128.ReducesTo [1] S16
  h_S_ : 0 < S_.numel
  bcast_S16_S16x1_0 : S16.BroadcastsInDim S16x1 (![0] : Fin 1 → Fin S16x1.rank)
  shapeCasts_S16x1_S1x16 : S16x1.ShapeCasts S1x16
  transposes_S16x128_S128x16_1_0 : S16x128.Transposes [1, 0] S128x16
  bcast_S_S128x16 : S_.BroadcastsInDim S128x16 (![] : Fin 0 → Fin S128x16.rank)
  concatenates_S128x16_S128x16_S256x16_d0 : Shape.Concatenates [S128x16, S128x16] S256x16 0
  transposes_S16x32x128_S128x16x32_2_0_1 : S16x32x128.Transposes [2, 0, 1] S128x16x32
  shapeCasts_S128x16x32_S128x512 : S128x16x32.ShapeCasts S128x512
  bitsLt_bf16_f32 : FTy.bits .bf16 < FTy.bits .f32
  shapeCasts_S16x32_S1x512 : S16x32.ShapeCasts S1x512
  bcast_S_S16x16 : S_.BroadcastsInDim S16x16 (![] : Fin 0 → Fin S16x16.rank)
  bcast_S16x16_S16x16x32_0_1 : S16x16.BroadcastsInDim S16x16x32 (![0, 1] : Fin 2 → Fin S16x16x32.rank)
  shapeCasts_S16x16x32_S16x512 : S16x16x32.ShapeCasts S16x512
  bcast_S_S32x32 : S_.BroadcastsInDim S32x32 (![] : Fin 0 → Fin S32x32.rank)
  shapeCasts_S32x32_S1x32x1x32 : S32x32.ShapeCasts S1x32x1x32
  bcast_S1x32x1x32_S16x32x1x32_0_1_2_3 : S1x32x1x32.BroadcastsInDim S16x32x1x32 (![0, 1, 2, 3] : Fin 4 → Fin S16x32x1x32.rank)
  shapeCasts_S16x32x1x32_S512x32 : S16x32x1x32.ShapeCasts S512x32
  inb_S2000x128_S2000x128_0_0 : ∀ a, (![0, 0] : Fin 2 → Nat) a + S2000x128.size a ≤ S2000x128.size a
  h_S2000x128 : 0 < S2000x128.numel
  concatenates_S2000x128_S2000x128_S2000x256_d1 : Shape.Concatenates [S2000x128, S2000x128] S2000x256 1
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S2000x32_S2000x32_0_0 : ∀ a, (![0, 0] : Fin 2 → Nat) a + S2000x32.size a ≤ S2000x32.size a
  h_S2000x32 : 0 < S2000x32.numel
  dot_S2000x256_S256x16_S2000x16_1_0_0_1_n_n_wf : DotDims.WF S2000x256 S256x16 S2000x16 [1] [0] [0] [1] [] []
  dot_S2000x128_S128x512_S2000x512_1_0_0_1_n_n_wf : DotDims.WF S2000x128 S128x512 S2000x512 [1] [0] [0] [1] [] []
  dot_S2000x16_S16x512_S2000x512_1_0_0_1_n_n_wf : DotDims.WF S2000x16 S16x512 S2000x512 [1] [0] [0] [1] [] []
  dot_S2000x512_S512x32_S2000x32_1_0_0_1_n_n_wf : DotDims.WF S2000x512 S512x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x512.size a ≤ S16x512.size a
  hwx0_5 : ∀ i : grid0.Coords, EltTy.bits .f32 = 32 ∨ (Rect.block (s := S16x512) S16x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x32.size a ≤ S512x32.size a
  hwx0_6 : ∀ i : grid0.Coords, EltTy.bits .f32 = 32 ∨ (Rect.block (s := S512x32) S512x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x32.size a ≤ S50000x32.size a
  hwx0_7 : ∀ i : grid0.Coords, EltTy.bits .f32 = 32 ∨ (Rect.block (s := S50000x32) S2000x32.size (cc0_transform_7 i) (hinb0_7 i)).WholeWords (EltTy.packing .f32)

variable [Facts₀]

def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x16_S16x512_S2000x512_1_0_0_1_n_n : DotDims S2000x16 S16x512 S2000x512 where
  lhsContracting := [1]
  rhsContracting := [0]
  lhsNonContracting := [0]
  rhsNonContracting := [1]
  lhsBatch := []
  rhsBatch := []
  wf := dot_S2000x16_S16x512_S2000x512_1_0_0_1_n_n_wf
def dot_S2000x512_S512x32_S2000x32_1_0_0_1_n_n : DotDims S2000x512 S512x32 S2000x32 where
  lhsContracting := [1]
  rhsContracting := [0]
  lhsNonContracting := [0]
  rhsNonContracting := [1]
  lhsBatch := []
  rhsBatch := []
  wf := dot_S2000x512_S512x32_S2000x32_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S16x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S512x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S2000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S16x128 : Shape := ⟨2, ![16, 128]⟩
abbrev S16x32x128 : Shape := ⟨3, ![16, 32, 128]⟩
abbrev S16x32 : Shape := ⟨2, ![16, 32]⟩
abbrev S_ : Shape := ⟨0, ![]⟩
abbrev S50000x1x128 : Shape := ⟨3, ![50000, 1, 128]⟩
abbrev S1x16x128 : Shape := ⟨3, ![1, 16, 128]⟩
abbrev S50000x16x128 : Shape := ⟨3, ![50000, 16, 128]⟩
abbrev S50000x16 : Shape := ⟨2, ![50000, 16]⟩
abbrev S50000 : Shape := ⟨1, ![50000]⟩
abbrev S50000x1 : Shape := ⟨2, ![50000, 1]⟩
abbrev S50000x16x32 : Shape := ⟨3, ![50000, 16, 32]⟩
abbrev S1x16x32 : Shape := ⟨3, ![1, 16, 32]⟩
abbrev S50000x16x1 : Shape := ⟨3, ![50000, 16, 1]⟩
abbrev S50000x32 : Shape := ⟨2, ![50000, 32]⟩

abbrev nBuf : Space → Nat
  | .hbm => 70
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S16x128, .f32⟩
  | .hbm, ⟨2, _⟩ => ⟨S16x128, .f32⟩
  | .hbm, ⟨3, _⟩ => ⟨S16x32x128, .f32⟩
  | .hbm, ⟨4, _⟩ => ⟨S16x32, .f32⟩
  | .hbm, ⟨5, _⟩ => ⟨S50000x128, .f32⟩
  | .hbm, ⟨6, _⟩ => ⟨S50000x128, .f32⟩
  | .hbm, ⟨7, _⟩ => ⟨S_, .f32⟩
  | .hbm, ⟨8, _⟩ => ⟨S50000x128, .f32⟩
  | .hbm, ⟨9, _⟩ => ⟨S50000x128, .f32⟩
  | .hbm, ⟨10, _⟩ => ⟨S_, .f32⟩
  | .hbm, ⟨11, _⟩ => ⟨S50000x128, .f32⟩
  | .hbm, ⟨12, _⟩ => ⟨S50000x128, .f32⟩
  | .hbm, ⟨13, _⟩ => ⟨S50000x1x128, .f32⟩
  | .hbm, ⟨14, _⟩ => ⟨S1x16x128, .f32⟩
  | .hbm, ⟨15, _⟩ => ⟨S50000x16x128, .f32⟩
  | .hbm, ⟨16, _⟩ => ⟨S50000x16x128, .f32⟩
  | .hbm, ⟨17, _⟩ => ⟨S50000x16x128, .f32⟩
  | .hbm, ⟨18, _⟩ => ⟨S50000x16x128, .f32⟩
  | .hbm, ⟨19, _⟩ => ⟨S1x16x128, .f32⟩
  | .hbm, ⟨20, _⟩ => ⟨S50000x16x128, .f32⟩
  | .hbm, ⟨21, _⟩ => ⟨S50000x16x128, .f32⟩
  | .hbm, ⟨22, _⟩ => ⟨S50000x16x128, .f32⟩
  | .hbm, ⟨23, _⟩ => ⟨S_, .f32⟩
  | .hbm, ⟨24, _⟩ => ⟨S50000x16x128, .f32⟩
  | .hbm, ⟨25, _⟩ => ⟨S50000x16x128, .f32⟩
  | .hbm, ⟨26, _⟩ => ⟨S_, .f32⟩
  | .hbm, ⟨27, _⟩ => ⟨S50000x16, .f32⟩
  | .hbm, ⟨28, _⟩ => ⟨S_, .f32⟩
  | .hbm, ⟨29, _⟩ => ⟨S50000x16, .f32⟩
  | .hbm, ⟨30, _⟩ => ⟨S50000x16, .f32⟩
  | .hbm, ⟨31, _⟩ => ⟨S_, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x16, .f32⟩
  | .hbm, ⟨38, _⟩ => ⟨S50000x16, .f32⟩
  | .hbm, ⟨39, _⟩ => ⟨S50000x16, .f32⟩
  | .hbm, ⟨40, _⟩ => ⟨S_, .f32⟩
  | .hbm, ⟨41, _⟩ => ⟨S50000, .f32⟩
  | .hbm, ⟨42, _⟩ => ⟨S50000x1, .f32⟩
  | .hbm, ⟨43, _⟩ => ⟨S50000x16, .f32⟩
  | .hbm, ⟨44, _⟩ => ⟨S50000x16, .f32⟩
  | .hbm, ⟨45, _⟩ => ⟨S50000x16x32, .f32⟩
  | .hbm, ⟨46, _⟩ => ⟨S1x16x32, .f32⟩
  | .hbm, ⟨47, _⟩ => ⟨S50000x16x32, .f32⟩
  | .hbm, ⟨48, _⟩ => ⟨S50000x16x32, .f32⟩
  | .hbm, ⟨49, _⟩ => ⟨S50000x16x32, .f32⟩
  | .hbm, ⟨50, _⟩ => ⟨S50000x16x32, .f32⟩
  | .hbm, ⟨51, _⟩ => ⟨S_, .f32⟩
  | .hbm, ⟨52, _⟩ => ⟨S50000x16x32, .f32⟩
  | .hbm, ⟨53, _⟩ => ⟨S50000x16x32, .f32⟩
  | .hbm, ⟨54, _⟩ => ⟨S_, .f32⟩
  | .hbm, ⟨55, _⟩ => ⟨S50000x16x32, .f32⟩
  | .hbm, ⟨56, _⟩ => ⟨S50000x16x32, .f32⟩
  | .hbm, ⟨57, _⟩ => ⟨S50000x16x1, .f32⟩
  | .hbm, ⟨58, _⟩ => ⟨S50000x16x32, .f32⟩
  | .hbm, ⟨59, _⟩ => ⟨S50000x16x32, .f32⟩
  | .hbm, ⟨60, _⟩ => ⟨S_, .f32⟩
  | .hbm, ⟨61, _⟩ => ⟨S50000x32, .f32⟩
  | .hbm, ⟨62, _⟩ => ⟨S50000x32, .f32⟩
  | .hbm, ⟨63, _⟩ => ⟨S50000x32, .f32⟩
  | .hbm, ⟨64, _⟩ => ⟨S_, .f32⟩
  | .hbm, ⟨65, _⟩ => ⟨S50000x32, .f32⟩
  | .hbm, ⟨66, _⟩ => ⟨S50000x32, .f32⟩
  | .hbm, ⟨67, _⟩ => ⟨S_, .f32⟩
  | .hbm, ⟨68, _⟩ => ⟨S50000x32, .f32⟩
  | .hbm, ⟨69, _⟩ => ⟨S50000x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S50000x128_S50000x1x128_0_2 : S50000x128.BroadcastsInDim S50000x1x128 (![0, 2] : Fin 2 → Fin S50000x1x128.rank)
  bcast_S16x128_S1x16x128_1_2 : S16x128.BroadcastsInDim S1x16x128 (![1, 2] : Fin 2 → Fin S1x16x128.rank)
  bcast_S50000x1x128_S50000x16x128_0_1_2 : S50000x1x128.BroadcastsInDim S50000x16x128 (![0, 1, 2] : Fin 3 → Fin S50000x16x128.rank)
  bcast_S1x16x128_S50000x16x128_0_1_2 : S1x16x128.BroadcastsInDim S50000x16x128 (![0, 1, 2] : Fin 3 → Fin S50000x16x128.rank)
  bcast_S_S50000x16x128 : S_.BroadcastsInDim S50000x16x128 (![] : Fin 0 → Fin S50000x16x128.rank)
  reducesTo_S50000x16x128_S50000x16_d2 : S50000x16x128.ReducesTo [2] S50000x16
  h_S_ : 0 < S_.numel
  bcast_S_S50000x16 : S_.BroadcastsInDim S50000x16 (![] : Fin 0 → Fin S50000x16.rank)
  reducesTo_S50000x16_S50000_d1 : S50000x16.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  bcast_S16x32_S1x16x32_1_2 : S16x32.BroadcastsInDim S1x16x32 (![1, 2] : Fin 2 → Fin S1x16x32.rank)
  bcast_S1x16x32_S50000x16x32_0_1_2 : S1x16x32.BroadcastsInDim S50000x16x32 (![0, 1, 2] : Fin 3 → Fin S50000x16x32.rank)
  bcast_S_S50000x16x32 : S_.BroadcastsInDim S50000x16x32 (![] : Fin 0 → Fin S50000x16x32.rank)
  bcast_S50000x16_S50000x16x1_0_1 : S50000x16.BroadcastsInDim S50000x16x1 (![0, 1] : Fin 2 → Fin S50000x16x1.rank)
  bcast_S50000x16x1_S50000x16x32_0_1_2 : S50000x16x1.BroadcastsInDim S50000x16x32 (![0, 1, 2] : Fin 3 → Fin S50000x16x32.rank)
  reducesTo_S50000x16x32_S50000x32_d1 : S50000x16x32.ReducesTo [1] S50000x32
  bcast_S_S50000x32 : S_.BroadcastsInDim S50000x32 (![] : Fin 0 → Fin S50000x32.rank)
  dot_S50000x128_S16x32x128_S50000x16x32_1_2_0_01_n_n_wf : DotDims.WF S50000x128 S16x32x128 S50000x16x32 [1] [2] [0] [0, 1] [] []

variable [Facts₀]

def dot_S50000x128_S16x32x128_S50000x16x32_1_2_0_01_n_n : DotDims S50000x128 S16x32x128 S50000x16x32 where
  lhsContracting := [1]
  rhsContracting := [2]
  lhsNonContracting := [0]
  rhsNonContracting := [0, 1]
  lhsBatch := []
  rhsBatch := []
  wf := dot_S50000x128_S16x32x128_S50000x16x32_1_2_0_01_n_n_wf

class Facts : Prop extends Facts₀ where

variable [Facts]
-- ==== Proof.Spec.lean ====
/-
  A network of sixteen fuzzy rules on the extended reals, as one function of its five parameter arrays.

  Inputs: `X` (50000 rows of 128 coordinates), and per rule `r` a centre `C r ·` and a width `Wd r ·` (128 coordinates
  each), a 32 × 128 matrix `W r · ·` and a bias `Bi r ·` (32 entries).  A row's coordinates are first squashed by the
  logistic function (`xs`).  Rule `r` fires on a row with strength `fs r`; the strengths are turned into weights by a
  softmax over the sixteen rules (`smax`: shifted by the largest strength, exponentiated, normalised); rule `r` proposes
  the outputs `cq r o` = logistic of (row · `W r o ·` + `Bi r o`); the result at output `o` is the logistic of the weighted
  sum over the rules of the proposals (`G`).

  The firing strength is written two ways.  `fsRef`: the mean over the coordinates of −½ (|xs − c| / w)², every
  quotient taken as written.  `fsKer`: −1/256 times ( Σ xs² · iw2 + Σ xs · (−2 · (c · iw2)) + Σ c² · iw2 ) with
  `iw2 = 1 / (w · w)`: the square expanded and the reciprocal of the squared width taken once.  The two agree when the
  entries are real numbers and no width is zero (LawStrength.lean); at a zero width they do not.

  The float words are kept as the words the programs spell: 0x3F800000 is 1, 0xBF000000 is −1/2, 0x43000000 is 128,
  0xC0000000 is −2, 0xBB800000 is −1/256, 0xFF800000 is −∞ (Consts.lean evaluates the ones a law needs).
-/
import Idealize.ShloMosaic.Lib.ValueIdx
import Idealize.ShloMosaic.PureOps.Ideal.Laws

noncomputable section

open scoped BigOperators

namespace RuleNet

open Idealize.ShloMosaic Idealize.ShloMosaic.ValueIdx

abbrev SX : Shape := ⟨2, ![50000, 128]⟩
abbrev SC : Shape := ⟨2, ![16, 128]⟩
abbrev SW : Shape := ⟨3, ![16, 32, 128]⟩
abbrev SB : Shape := ⟨2, ![16, 32]⟩
abbrev SO : Shape := ⟨2, ![50000, 32]⟩

/-- Coordinate `d` of row `b`, squashed into (0, 1). -/
def xs (X : SX.Idx → EReal) (b : Fin 50000) (d : Fin 128) : EReal := Ideal.logistic (X (ix2 b d))

/-- Firing strength of rule `r` on row `b`, every quotient as written: the mean of −½ (|xs − c| / w)². -/
def fsRef (X : SX.Idx → EReal) (C Wd : SC.Idx → EReal) (b : Fin 50000) (r : Fin 16) : EReal :=
  Ideal.div
    (∑ d : Fin 128, Ideal.ofBits .f32 0xBF000000#32 *
      (Ideal.div (max (xs X b d - C (ix2 r d)) (-(xs X b d - C (ix2 r d)))) (Wd (ix2 r d)) *
       Ideal.div (max (xs X b d - C (ix2 r d)) (-(xs X b d - C (ix2 r d)))) (Wd (ix2 r d))))
    (Ideal.ofBits .f32 0x43000000#32)

/-- The reciprocal of the squared width. -/
def iw2 (Wd : SC.Idx → EReal) (r : Fin 16) (d : Fin 128) : EReal :=
  Ideal.div (Ideal.ofBits .f32 0x3F800000#32) (Wd (ix2 r d) * Wd (ix2 r d))

/-- Firing strength of rule `r` on row `b`, the square expanded. -/
def fsKer (X : SX.Idx → EReal) (C Wd : SC.Idx → EReal) (b : Fin 50000) (r : Fin 16) : EReal :=
  Ideal.ofBits .f32 0xBB800000#32 *
    (((∑ d : Fin 128, (xs X b d * xs X b d) * iw2 Wd r d)
      + (∑ d : Fin 128, xs X b d * (Ideal.ofBits .f32 0xC0000000#32 * (C (ix2 r d) * iw2 Wd r d))))
     + (∑ d : Fin 128, (C (ix2 r d) * C (ix2 r d)) * iw2 Wd r d))

/-- The largest of sixteen numbers, as both programs compute it: the fold of `max` from −∞, once more against −∞. -/
def rowMax (f : Fin 16 → EReal) : EReal :=
  max (Ideal.ofBits .f32 0xFF800000#32)
    ((Finset.univ : Finset (Fin 16)).fold max (Ideal.ofBits .f32 0xFF800000#32) f)

/-- Softmax over sixteen numbers. -/
def smax (f : Fin 16 → EReal) (r : Fin 16) : EReal :=
  Ideal.div (Ideal.exp (f r - rowMax f)) (∑ r' : Fin 16, Ideal.exp (f r' - rowMax f))

/-- Output `o` proposed by rule `r` for row `b`. -/
def cq (X : SX.Idx → EReal) (W : SW.Idx → EReal) (Bi : SB.Idx → EReal) (b : Fin 50000) (r : Fin 16) (o : Fin 32) : EReal :=
  Ideal.logistic ((∑ d : Fin 128, X (ix2 b d) * W (ix3 r o d)) + Bi (ix2 r o))

/-- The network's result for firing strengths `fs`. -/
def G (fs : Fin 50000 → Fin 16 → EReal) (X : SX.Idx → EReal) (W : SW.Idx → EReal) (Bi : SB.Idx → EReal) : SO.Idx → EReal :=
  fun i => Ideal.logistic (∑ r : Fin 16,
    cq X W Bi ⟨(i 0).val, idx2_lt0 i⟩ r ⟨(i 1).val, idx2_lt1 i⟩ * smax (fs ⟨(i 0).val, idx2_lt0 i⟩) r)

theorem G_ix2 (fs : Fin 50000 → Fin 16 → EReal) (X : SX.Idx → EReal) (W : SW.Idx → EReal) (Bi : SB.Idx → EReal)
    (b : Fin 50000) (o : Fin 32) :
    G fs X W Bi (ix2 b o) = Ideal.logistic (∑ r : Fin 16, cq X W Bi b r o * smax (fs b) r) := rfl

/-- The result depends on the firing strengths only through their values. -/
theorem G_congr {fs fs' : Fin 50000 → Fin 16 → EReal} (h : ∀ b r, fs b r = fs' b r)
    (X : SX.Idx → EReal) (W : SW.Idx → EReal) (Bi : SB.Idx → EReal) : G fs X W Bi = G fs' X W Bi := by
  have e : fs = fs' := funext fun b => funext fun r => h b r
  rw [e]

end RuleNet

end
-- ==== Proof.KArgs.lean ====
/-
  The kernel program's five argument arrays, as its launch memory holds them on core `c`, typed as arrays of extended
  reals over the shapes the network's specification uses.
-/
import proofs.«152940_j33474975105109_2_alg».proof.Proof.Gen.KernelIdeal.Frame
import proofs.«152940_j33474975105109_2_alg».proof.Proof.Spec

noncomputable section

namespace Cert.KernelIdeal.Args

open Cert.KernelIdeal Cert.KernelIdeal.Gen Idealize.ShloMosaic Idealize.ShloMosaic.TcCoe Idealize.SL.Sem

variable (m : (ℓ : Loc nD τ sig) → Buf (Elt Ideal) ℓ) (c : Dev nD)

abbrev aX : RuleNet.SX.Idx → EReal := m ((c : Thread nD τ).loc main_arg0)
abbrev aC : RuleNet.SC.Idx → EReal := m ((c : Thread nD τ).loc main_arg1)
abbrev aWd : RuleNet.SC.Idx → EReal := m ((c : Thread nD τ).loc main_arg2)
abbrev aW : RuleNet.SW.Idx → EReal := m ((c : Thread nD τ).loc main_arg3)
abbrev aBi : RuleNet.SB.Idx → EReal := m ((c : Thread nD τ).loc main_arg4)

end Cert.KernelIdeal.Args

end
-- ==== Proof.Index.lean ====
/-
  Three ways a small index sits inside a larger one: coordinate `d` of 128 as position `d` (`lo`) or `128 + d` (`hi`) of a
  row of 256 (two rows of 128 laid end to end), and the pair (rule `r` of 16, output `o` of 32) as position `32 r + o` of
  a row of 512 (sixteen rows of 32 laid end to end, `flat`).
-/
import Mathlib.Data.Fin.Basic
import Mathlib.Tactic

namespace RuleNet

def lo (d : Fin 128) : Fin 256 := ⟨d.val, lt_of_lt_of_le d.isLt (by norm_num)⟩
def hi (d : Fin 128) : Fin 256 := ⟨128 + d.val, by have := d.isLt; omega⟩
def flat (r : Fin 16) (o : Fin 32) : Fin 512 := ⟨r.val * 32 + o.val, by have := r.isLt; have := o.isLt; omega⟩

@[simp] theorem lo_val (d : Fin 128) : (lo d).val = d.val := rfl
@[simp] theorem hi_val (d : Fin 128) : (hi d).val = 128 + d.val := rfl
@[simp] theorem flat_val (r : Fin 16) (o : Fin 32) : (flat r o).val = r.val * 32 + o.val := rfl

end RuleNet
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibProdRows.lean ====
/-
  Two facts about products of rank-2 arrays of extended reals, over generic extents, beside `MatProd.entry` / `mm`.

  First, a dimension-numbers record that contracts the columns of its left operand against the rows of its right
  one (`MatProd.Plain`: one contracted axis of the inner extent, the left operand read at (result row, contracted
  coordinate), the right operand at (contracted coordinate, result column)) makes both spellings of a product the
  array `mm`: the matrix unit's product onto the zero accumulator (`matmul_zero_mm`) and the host's
  dot_general (`dotGeneral_mm`).

  Second, the band law `entry_mm_rows`: if row `p` of a short array `a` is row `r` of a tall array `A`, then
  entry (p, q) of (a * W1) * W2 is entry (r, q) of (A * W1) * W2.  Each entry of a two-fold product depends on one
  row of the leftmost factor only, so a band of rows of the product is the product of the band.  No finiteness is
  used: the two sides are the same sums of the same products.
-/
import proofs.«152940_j33474975105109_2_alg».proof.Proof.LibMatProd

noncomputable section

open scoped BigOperators

namespace MatProd

open Idealize.ShloMosaic Idealize.ShloMosaic.ValueIdx

/-- The record contracts the left operand's columns against the right operand's rows, and nothing else. -/
structure Plain {n k m : ℕ} (d : DotDims (⟨2, ![n, k]⟩ : Shape) (⟨2, ![k, m]⟩ : Shape) (⟨2, ![n, m]⟩ : Shape)) : Prop where
  hr : d.contr.rank = 1
  hs : d.contr.size ⟨0, by omega⟩ = k
  hl0 : ∀ (j : (⟨2, ![n, m]⟩ : Shape).Idx) (c : d.contr.Idx), (d.lhsIdx j c 0).val = (j 0).val
  hl1 : ∀ (j : (⟨2, ![n, m]⟩ : Shape).Idx) (c : d.contr.Idx), (d.lhsIdx j c 1).val = (c ⟨0, by omega⟩).val
  hr0 : ∀ (j : (⟨2, ![n, m]⟩ : Shape).Idx) (c : d.contr.Idx), (d.rhsIdx j c 0).val = (c ⟨0, by omega⟩).val
  hr1 : ∀ (j : (⟨2, ![n, m]⟩ : Shape).Idx) (c : d.contr.Idx), (d.rhsIdx j c 1).val = (j 1).val

/-- The matrix unit's product onto the zero accumulator is the product array. -/
theorem matmul_zero_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (lhs : FVec Ideal (⟨2, ![n, k]⟩ : Shape) φ₁) (rhs : FVec Ideal (⟨2, ![k, m]⟩ : Shape) φ₂) :
    FloatOps.matmul d prec lhs rhs (constant (F := Ideal) (⟨2, ![n, m]⟩ : Shape) .f32 0x00000000#32) = mm lhs rhs := by
  funext i
  obtain ⟨p, q, rfl⟩ : ∃ (p : Fin n) (q : Fin m), i = ix2 p q := ⟨i 0, i 1, eq_ix2 i⟩
  rw [matmul_zero_entry d prec h.hr h.hs h.hl0 h.hl1 h.hr0 h.hr1 lhs rhs p q, mm_ix2]

/-- The host's dot_general at one pair of coordinates is the product's entry. -/
theorem dotGeneral_entry {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) (p : Fin n) (q : Fin m) :
    FloatOps.dotGeneral d prec sched lhs rhs (ix2 p q) = entry lhs rhs p q := by
  rw [Ideal.dotGeneral_apply, ← Equiv.sum_comp (contrEquiv1 d k h.hr h.hs).symm]
  unfold entry
  refine Finset.sum_congr rfl fun l _ => ?_
  have hk := contrEquiv1_symm_val d k h.hr h.hs l
  have el : d.lhsIdx (ix2 p q) ((contrEquiv1 d k h.hr h.hs).symm l) = ix2 p l := funext fun a => Fin.ext (by
    match a with
    | ⟨0, _⟩ => exact h.hl0 _ _
    | ⟨1, _⟩ => exact (h.hl1 _ _).trans hk)
  have er : d.rhsIdx (ix2 p q) ((contrEquiv1 d k h.hr h.hs).symm l) = ix2 l q := funext fun a => Fin.ext (by
    match a with
    | ⟨0, _⟩ => exact (h.hr0 _ _).trans hk
    | ⟨1, _⟩ => exact h.hr1 _ _)
  rw [el, er]

/-- The host's dot_general is the product array. -/
theorem dotGeneral_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) :
    FloatOps.dotGeneral d prec sched lhs rhs = mm lhs rhs := by
  funext i
  obtain ⟨p, q, rfl⟩ : ∃ (p : Fin n) (q : Fin m), i = ix2 p q := ⟨i 0, i 1, eq_ix2 i⟩
  rw [dotGeneral_entry h, mm_ix2]

/-- THE BAND LAW.  If row `p` of `a` is row `r` of `A`, entry (p, q) of (a * W1) * W2 is entry (r, q) of (A * W1) * W2. -/
theorem entry_mm_rows {N n k h m : ℕ} (A : (⟨2, ![N, k]⟩ : Shape).Idx → EReal) (a : (⟨2, ![n, k]⟩ : Shape).Idx → EReal)
    (W1 : (⟨2, ![k, h]⟩ : Shape).Idx → EReal) (W2 : (⟨2, ![h, m]⟩ : Shape).Idx → EReal) (p : Fin n) (r : Fin N)
    (hrow : ∀ l, a (ix2 p l) = A (ix2 r l)) (q : Fin m) :
    entry (mm a W1) W2 p q = entry (mm A W1) W2 r q := by
  unfold entry
  refine Finset.sum_congr rfl fun x _ => ?_
  rw [mm_ix2, mm_ix2]
  unfold entry
  rw [Finset.sum_congr rfl fun l _ => by rw [hrow l]]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.LibConcatCols.lean ====
/-
  Two arrays with the same number of rows laid side by side.

  Joining an n × a array X and an n × b array Y along the second axis gives an n × c array (c = a + b) whose row r is row r
  of X followed by row r of Y.  Read at an index (r, k) of the joined array: for k = l < a it is X (r, l) (`left`), and for
  k = a + l it is Y (r, l) (`right`).  The index of the joined array is given with its two coordinates as hypotheses, so
  the lemmas apply however the index is spelt.
-/
import Idealize.ShloMosaic.Lib.Pipeline.Value
import Idealize.ShloMosaic.Lib.ValueIdx

namespace ConcatCols

open Idealize.ShloMosaic Idealize.ShloMosaic.ValueIdx

variable {α : Type} {n a b c : ℕ}

/-- A position of the joined row that falls in the first array's columns reads the first array. -/
theorem left (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (j : (⟨2, ![n, c]⟩ : Shape).Idx) (r : Fin n) (l : Fin a) (hr : (j 0).val = r.val) (hl : (j 1).val = l.val) :
    concatenate ⟨2, ![n, c]⟩ 1 [⟨⟨2, ![n, a]⟩, x⟩, ⟨⟨2, ![n, b]⟩, y⟩] h j = x (ix2 r l) :=
  concatenate_pair_apply_left (t := ⟨2, ![n, c]⟩) (1 : Fin 2) x y h j rfl (ix2 r l)
    (fun d => by match d with | ⟨0, _⟩ => exact hr.symm | ⟨1, _⟩ => exact hl.symm)

/-- A position a + l of the joined row reads position l of the second array's row. -/
theorem right (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (j : (⟨2, ![n, c]⟩ : Shape).Idx) (r : Fin n) (l : Fin b) (hr : (j 0).val = r.val) (hl : (j 1).val = a + l.val) :
    concatenate ⟨2, ![n, c]⟩ 1 [⟨⟨2, ![n, a]⟩, x⟩, ⟨⟨2, ![n, b]⟩, y⟩] h j = y (ix2 r l) :=
  concatenate_pair_apply_right (t := ⟨2, ![n, c]⟩) (1 : Fin 2) x y h j rfl rfl (ix2 r l)
    (fun d hd => by match d, hd with | ⟨0, _⟩, _ => exact hr.symm | ⟨1, _⟩, hd => exact absurd rfl hd)
    (by show l.val + a = (j 1).val; omega)

end ConcatCols
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibMatProdT.lean ====
/-
  A matrix unit's product whose right operand is stored with the contracted axis LAST: for an `n × k` array `A` and an
  `m × k` array `B`, contracting the second axis of both onto the zero accumulator gives, at `(p, q)`, the sum over `l` of
  `A (p, l) * B (q, l)` — the entries of `A · Bᵀ` without the transpose ever being formed.  Also a row maximum: a
  `maximumf` reduction of a rank-2 array along its last axis reads, at row `p`, the fold of `max` from the accumulator's
  value over that row.  Generic extents; indices are built from coordinates.
-/
import Idealize.ShloMosaic.Lib.ValueIdx
import Idealize.ShloMosaic.PureOps.Ideal.Laws

noncomputable section

open scoped BigOperators

namespace MatProdT

open Idealize.ShloMosaic Idealize.ShloMosaic.ValueIdx

/-- The product onto the zero accumulator with both operands contracted along their second axis. -/
theorem matmul_zero_entry_T {n k m : ℕ} {φ₁ φ₂ : FTy}
    (d : DotDims (⟨2, ![n, k]⟩ : Shape) (⟨2, ![m, k]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (j 1).val)
    (hr1 : ∀ (j : (⟨2, ![n, m]⟩ : Shape).Idx) (c : d.contr.Idx), (d.rhsIdx j c 1).val = (c ⟨0, by omega⟩).val)
    (lhs : FVec Ideal (⟨2, ![n, k]⟩ : Shape) φ₁) (rhs : FVec Ideal (⟨2, ![m, k]⟩ : Shape) φ₂) (p : Fin n) (q : Fin m) :
    FloatOps.matmul d prec lhs rhs (constant (F := Ideal) (⟨2, ![n, m]⟩ : Shape) .f32 0x00000000#32) (ix2 p q)
      = ∑ l : Fin k, lhs (ix2 p l) * rhs (ix2 q l) := by
  rw [Ideal.matmul_constant_zero_apply, ← Equiv.sum_comp (contrEquiv1 d k hr hs).symm]
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 q l := funext fun a => Fin.ext (by
    match a with
    | ⟨0, _⟩ => exact hr0 _ _
    | ⟨1, _⟩ => exact (hr1 _ _).trans hk)
  rw [el, er]

/-- A row maximum: the fold of `max` from the accumulator's value over the row's entries. -/
theorem max_ab_1 {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have e : (src ∘ h.lift (ix1 i)) = fun k : Fin b => src (ix2 i k) := funext fun k => congrArg src (funext fun ax => Fin.ext (by
    match ax with | ⟨0, _⟩ => rfl | ⟨1, _⟩ => rfl))
  exact congrArg (fun f => Finset.fold max (Ideal.ofBits φ acc) f (Finset.univ : Finset (Fin b))) e

end MatProdT

end
-- ==== Proof.LibRowStat.lean ====
/-
  A row statistic of a rank-2 array kept as a column and stretched back over the row: the `keepdims` maximum and the
  `keepdims` sum along the last axis, each reshaped `[a] → [a, 1]` and broadcast `[a, 1] → [a, b]`, read at `(p, r)`:
  the fold of `max` from −∞, or the sum, over row `p` — the same at every `r`.  Also the column `[a, 1]` itself read at
  `(p, 0)`.  The arrays are single-precision; the reductions start from the words a program prints for them, the zero
  word for a sum and the word of −∞ for a maximum, and the side conditions are typed as a printed program proves them.
  The exponential and the reciprocal square root of an array of extended reals are taken entry by entry.  Generic
  extents; indices are built from coordinates.
-/
import Idealize.ShloMosaic.Lib.Pipeline.Value
import Idealize.ShloMosaic.Lib.ValueIdx
import Idealize.ShloMosaic.PureOps.Ideal.Laws
import proofs.«152940_j33474975105109_2_alg».proof.Proof.LibLayout
import proofs.«152940_j33474975105109_2_alg».proof.Proof.LibRowCol
import proofs.«152940_j33474975105109_2_alg».proof.Proof.LibMatProdT

noncomputable section

open scoped BigOperators

namespace RowStat

open Idealize.ShloMosaic Idealize.ShloMosaic.ValueIdx

theorem exp_apply {s : Shape} {φ : FTy} (x : FVec Ideal s φ) (i : s.Idx) : exp x i = Ideal.exp (x i) := rfl
theorem rsqrt_apply {s : Shape} {φ : FTy} (x : FVec Ideal s φ) (i : s.Idx) : rsqrt x i = Ideal.rsqrt (x i) := rfl

/-- The row maximum as a column, at `(p, u)`. -/
theorem max_col {a b : ℕ} (z : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (p : Fin a) (u : Fin 1) :
    shapeCast ⟨2, ![a, 1]⟩ (multiReduction .maximumf [1] ⟨1, ![a]⟩ z 0xFF800000#32 hred hφ hacc) hc (ix2 p u)
      = (Finset.univ : Finset (Fin b)).fold max (Ideal.ofBits .f32 0xFF800000#32) (fun k => z (ix2 p k)) :=
  (PushPull.Layout.cast_a_a1 _ hc p u).trans (MatProdT.max_ab_1 z 0xFF800000#32 hred hφ hacc p)

/-- The row sum as a column, at `(p, u)`. -/
theorem sum_col {a b : ℕ} (z : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction .add [1] ⟨1, ![a]⟩ z 0x00000000#32 hred hφ hacc) hc (ix2 p u)
      = ∑ k : Fin b, z (ix2 p k) :=
  (PushPull.Layout.cast_a_a1 _ hc p u).trans (PushPull.Layout.sum_ab_1 z 0x00000000#32 hred hφ hacc p)

/-- The row maximum stretched back over the row, at `(p, r)`. -/
theorem max_back {a b c : ℕ} (z : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, c]⟩) (p : Fin a) (r : Fin c) :
    broadcastTo ⟨2, ![a, c]⟩ (shapeCast ⟨2, ![a, 1]⟩ (multiReduction .maximumf [1] ⟨1, ![a]⟩ z 0xFF800000#32 hred hφ hacc) hc) hb (ix2 p r)
      = (Finset.univ : Finset (Fin b)).fold max (Ideal.ofBits .f32 0xFF800000#32) (fun k => z (ix2 p k)) :=
  (RowCol.broadcastTo_a1_ab_apply _ hb p r).trans (max_col z hred hφ hacc hc p 0)

/-- The row sum stretched back over the row, at `(p, r)`. -/
theorem sum_back {a b c : ℕ} (z : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, c]⟩) (p : Fin a) (r : Fin c) :
    broadcastTo ⟨2, ![a, c]⟩ (shapeCast ⟨2, ![a, 1]⟩ (multiReduction .add [1] ⟨1, ![a]⟩ z 0x00000000#32 hred hφ hacc) hc) hb (ix2 p r)
      = ∑ k : Fin b, z (ix2 p k) :=
  (RowCol.broadcastTo_a1_ab_apply _ hb p r).trans (sum_col z hred hφ hacc hc p 0)

end RowStat

end
-- ==== Proof.LawTables.lean ====
/-
  Two constant tables of zeros and ones fold a row of 512 products back into sixteen.

  Position `j = 32 r + o'` of a row of 512 holds the proposal of rule `r` for output `o'`.  The first table spreads the
  sixteen weights over the 512 positions (position `j` receives the weight of rule `j / 32`: the sum over the rules keeps
  the one term `r' = j / 32`), the second one picks, for output `o`, the positions with `j % 32 = o`.  Multiplying by
  one and by zero is exact on the extended reals (`0 * ⊤ = 0`), and no product is distributed over a sum, so nothing
  is assumed finite.
-/
import Mathlib.Data.EReal.Operations
import Mathlib.Algebra.BigOperators.Fin
import Mathlib.Tactic
import proofs.«152940_j33474975105109_2_alg».proof.Proof.Index

open scoped BigOperators

namespace RuleNet

/-- The sum over the rules against the indicator of `r' = j / 32` keeps the one term `j / 32`. -/
theorem sum_rule_indicator (sw : Fin 16 → EReal) (j : Fin 512) :
    (∑ r' : Fin 16, sw r' * (if r'.val = j.val / 32 then (1 : EReal) else 0))
      = sw ⟨j.val / 32, by have := j.isLt; omega⟩ := by
  have hiff : ∀ r' : Fin 16, (r'.val = j.val / 32) ↔ r' = ⟨j.val / 32, by have := j.isLt; omega⟩ := by
    intro r'
    constructor
    · intro h; exact Fin.ext h
    · intro h; rw [h]
  simp only [hiff, mul_ite, mul_one, mul_zero, Finset.sum_ite_eq', Finset.mem_univ, if_true]

/-- Position `32 r + o'` of a row of 512, as a pair (rule, output). -/
def flatEquiv : Fin 16 × Fin 32 ≃ Fin 512 where
  toFun p := flat p.1 p.2
  invFun j := (⟨j.val / 32, by have := j.isLt; omega⟩, ⟨j.val % 32, Nat.mod_lt _ (by norm_num)⟩)
  left_inv := by
    rintro ⟨a, b⟩
    have ha := a.isLt
    have hb := b.isLt
    refine Prod.ext (Fin.ext ?_) (Fin.ext ?_)
    · show (a.val * 32 + b.val) / 32 = a.val
      omega
    · show (a.val * 32 + b.val) % 32 = b.val
      omega
  right_inv := by
    intro j
    refine Fin.ext ?_
    show j.val / 32 * 32 + j.val % 32 = j.val
    omega

theorem fold_tables (cqf : Fin 512 → EReal) (sw : Fin 16 → EReal) (o : Fin 32) :
    ∑ j : Fin 512, (cqf j * (∑ r' : Fin 16, sw r' * (if r'.val = j.val / 32 then (1 : EReal) else 0)))
        * (if j.val % 32 = o.val then (1 : EReal) else 0)
      = ∑ r : Fin 16, cqf (RuleNet.flat r o) * sw r := by
  -- reindex the 512 positions by (rule, output)
  rw [← Equiv.sum_comp flatEquiv, Fintype.sum_prod_type]
  refine Finset.sum_congr rfl fun a _ => ?_
  have ha := a.isLt
  -- at position 32 a + b: the inner sum is the weight of rule a, the second table is the indicator of b = o
  have hterm : ∀ b : Fin 32,
      (cqf (flatEquiv (a, b)) * (∑ r' : Fin 16, sw r' * (if r'.val = (flatEquiv (a, b)).val / 32 then (1 : EReal) else 0)))
          * (if (flatEquiv (a, b)).val % 32 = o.val then (1 : EReal) else 0)
        = if b = o then cqf (flat a b) * sw a else 0 := by
    intro b
    have hb := b.isLt
    have hv : (flatEquiv (a, b)).val = a.val * 32 + b.val := rfl
    have hq : (a.val * 32 + b.val) / 32 = a.val := by omega
    have hr : (a.val * 32 + b.val) % 32 = b.val := by omega
    rw [sum_rule_indicator]
    have hidx : (⟨(flatEquiv (a, b)).val / 32, by have := (flatEquiv (a, b)).isLt; omega⟩ : Fin 16) = a :=
      Fin.ext (show (a.val * 32 + b.val) / 32 = a.val from hq)
    rw [hidx, hv, hr]
    have hfe : flatEquiv (a, b) = flat a b := rfl
    rw [hfe]
    by_cases h : b = o
    · rw [if_pos h, if_pos (by rw [h]), mul_one]
    · rw [if_neg h, if_neg (fun h' => h (Fin.ext h')), mul_zero]
  simp only [hterm, Finset.sum_ite_eq', Finset.mem_univ, if_true]

end RuleNet
-- ==== Proof.BodyValue.lean ====
/-
  What the kernel's body stores at one entry of its output block, from its seven input blocks.

  The body takes a block of 2000 rows `x0`, squashes it entrywise by the logistic function (`xs`), lays `xs²` and `xs` side
  by side in a row of 256 and multiplies it with a 256 × 16 table `x1`; adds a one-row table `x2`; scales by −1/256: the
  firing strengths of the sixteen rules (`strength`).  A softmax over the rules follows (the row maximum and the row sum
  kept as columns and stretched back: `softmax_chain`).  Beside it, the block times a 128 × 512 table `x3`, plus a
  one-row table `x4`, through the logistic function: the proposals of every rule for every output, laid along 512
  columns.  The weights are spread over the 512 columns by a product with a 16 × 512 table `x5`, multiplied with the
  proposals, folded back onto 32 outputs by a product with a 512 × 32 table `x6`, and the logistic function is applied.

  Every product onto the zero accumulator is read entry by entry as a sum over the contracted axis, the sum over the 256
  positions split at the middle; nothing is assumed finite.  `body_entry` is the entry as a formula in the blocks;
  `point_value` says that when the blocks hold what the host part of the program put in them, the entry is the rule
  network's result with the expanded firing strengths.
-/
import proofs.«152940_j33474975105109_2_alg».proof.Proof.Gen.KernelIdeal.Skeleton
import proofs.«152940_j33474975105109_2_alg».proof.Proof.Spec
import proofs.«152940_j33474975105109_2_alg».proof.Proof.Index
import proofs.«152940_j33474975105109_2_alg».proof.Proof.LibMatProd
import proofs.«152940_j33474975105109_2_alg».proof.Proof.LibProdRows
import proofs.«152940_j33474975105109_2_alg».proof.Proof.LibDot2
import proofs.«152940_j33474975105109_2_alg».proof.Proof.LibConcatCols
import proofs.«152940_j33474975105109_2_alg».proof.Proof.LibRowStat
import proofs.«152940_j33474975105109_2_alg».proof.Proof.LawTables
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Idealize.ShloMosaic Idealize.ShloMosaic.ValueIdx

/-- A dimension record with the plain product's six lists contracts columns against rows. -/
theorem plain_of {n k q : ℕ} (d : DotDims (⟨2, ![n, k]⟩ : Shape) (⟨2, ![k, q]⟩ : Shape) (⟨2, ![n, q]⟩ : Shape))
    (h1 : d.lhsContracting = [1]) (h2 : d.rhsContracting = [0]) (h3 : d.lhsNonContracting = [0])
    (h4 : d.rhsNonContracting = [1]) (h5 : d.lhsBatch = []) (h6 : d.rhsBatch = []) : MatProd.Plain d :=
  have hr : d.contr.rank = 1 := Dot2.rank_contr d h1
  { hr := hr
    hs := Dot2.size_contr d h1 _
    hl0 := Dot2.lhs0 d h3 h5
    hl1 := Dot2.lhs1 d h1 _
    hr0 := Dot2.rhs0 d h2 _
    hr1 := Dot2.rhs1 d h3 h4 h5 h6 }

theorem plainA : MatProd.Plain dot_S2000x256_S256x16_S2000x16_1_0_0_1_n_n := plain_of _ rfl rfl rfl rfl rfl rfl
theorem plainB : MatProd.Plain dot_S2000x128_S128x512_S2000x512_1_0_0_1_n_n := plain_of _ rfl rfl rfl rfl rfl rfl
theorem plainC : MatProd.Plain dot_S2000x16_S16x512_S2000x512_1_0_0_1_n_n := plain_of _ rfl rfl rfl rfl rfl rfl
theorem plainD : MatProd.Plain dot_S2000x512_S512x32_S2000x32_1_0_0_1_n_n := plain_of _ rfl rfl rfl rfl rfl rfl

/-- A sum over a row of 256 positions is the sum over its first 128 plus the sum over its last 128. -/
theorem sum_256 (f : Fin 256 → EReal) : ∑ l : Fin 256, f l = (∑ d : Fin 128, f (RuleNet.lo d)) + ∑ d : Fin 128, f (RuleNet.hi d) := by
  have h := Fin.sum_univ_add (a := 128) (b := 128) (f := f)
  refine h.trans ?_
  rfl

theorem logistic_apply {s : Shape} {φ : FTy} (x : FVec Ideal s φ) (i : s.Idx) : logistic x i = Ideal.logistic (x i) := rfl

/-- The softmax of a row, as the body spells it: the row maximum (from −∞, once more against −∞) kept as a column and
    stretched back, subtracted; the exponential; the row sum kept as a column and stretched back, divided by. -/
theorem softmax_chain {a : ℕ} (z : FVec Ideal ⟨2, ![a, 16]⟩ .f32)
    (hred : (⟨2, ![a, 16]⟩ : Shape).Reduces [1] ⟨1, ![a]⟩) (hφ : FKind.Formats .f32)
    (haccM : (0xFF800000#32 : BitVec 32) = 0xFF800000#32) (haccS : (0x00000000#32 : BitVec 32) = 0x00000000#32)
    (hc : (⟨1, ![a]⟩ : Shape).ShapeCasts ⟨2, ![a, 1]⟩) (hb : (⟨2, ![a, 1]⟩ : Shape).Broadcasts ⟨2, ![a, 16]⟩)
    (p : Fin a) (r : Fin 16) :
    divf (exp (subf z (broadcastTo ⟨2, ![a, 16]⟩ (shapeCast ⟨2, ![a, 1]⟩
            (maximumf (broadcast ⟨1, ![a]⟩ (Scalar.ofBits (F := Ideal) .f32 0xFF800000#32))
              (multiReduction .maximumf [1] ⟨1, ![a]⟩ z 0xFF800000#32 hred hφ haccM)) hc) hb)))
        (broadcastTo ⟨2, ![a, 16]⟩ (shapeCast ⟨2, ![a, 1]⟩
          (multiReduction .add [1] ⟨1, ![a]⟩
            (exp (subf z (broadcastTo ⟨2, ![a, 16]⟩ (shapeCast ⟨2, ![a, 1]⟩
              (maximumf (broadcast ⟨1, ![a]⟩ (Scalar.ofBits (F := Ideal) .f32 0xFF800000#32))
                (multiReduction .maximumf [1] ⟨1, ![a]⟩ z 0xFF800000#32 hred hφ haccM)) hc) hb)))
            0x00000000#32 hred hφ haccS) hc) hb) (ix2 p r)
      = RuleNet.smax (fun k => z (ix2 p k)) r := by
  have hmax : ∀ k : Fin 16, (broadcastTo ⟨2, ![a, 16]⟩ (shapeCast ⟨2, ![a, 1]⟩
            (maximumf (broadcast ⟨1, ![a]⟩ (Scalar.ofBits (F := Ideal) .f32 0xFF800000#32))
              (multiReduction .maximumf [1] ⟨1, ![a]⟩ z 0xFF800000#32 hred hφ haccM)) hc) hb) (ix2 p k)
        = RuleNet.rowMax (fun k => z (ix2 p k)) := fun k =>
    (RowCol.broadcastTo_a1_ab_apply _ hb p k).trans ((RowCol.shapeCast_a_a1_apply _ hc p 0).trans
      (congrArg (max (Ideal.ofBits .f32 0xFF800000#32)) (MatProdT.max_ab_1 z 0xFF800000#32 hred hφ haccM p)))
  refine congrArg₂ Ideal.div ?_ ?_
  · exact congrArg (fun t => Ideal.exp (z (ix2 p r) - t)) (hmax r)
  · exact (RowStat.sum_back _ hred hφ haccS hc hb p r).trans
      (Finset.sum_congr rfl fun k _ => congrArg (fun t => Ideal.exp (z (ix2 p k) - t)) (hmax k))

open Cert.KernelIdeal.Gen

/-- The firing strength the body computes for row `p` of its block and rule `r`, from the row of the input block, the
    256 × 16 table and the one-row table. -/
def strength (x0 : FVec Ideal S2000x128 .f32) (x1 : FVec Ideal S256x16 .f32) (x2 : FVec Ideal S1x16 .f32) (p : Fin 2000) (r : Fin 16) : EReal :=
  Ideal.ofBits .f32 0xBB800000#32 *
    (((∑ d : Fin 128, (Ideal.logistic (x0 (ix2 p d)) * Ideal.logistic (x0 (ix2 p d))) * x1 (ix2 (RuleNet.lo d) r))
      + (∑ d : Fin 128, Ideal.logistic (x0 (ix2 p d)) * x1 (ix2 (RuleNet.hi d) r)))
     + x2 (ix2 (0 : Fin 1) r))

/-- The strength array at (p, r): the row [xs², xs] of 256 entries against column r of the 256 × 16 table, split at the
    middle; plus the one-row table; times the word of −1/256. -/
theorem strength_entry (x0 : FVec Ideal S2000x128 .f32) (x1 : FVec Ideal S256x16 .f32) (x2 : FVec Ideal S1x16 .f32)
    (hcat : Shape.Concatenates [S2000x128, S2000x128] S2000x256 1) (h1 : S256x16.ShapeCasts S256x16)
    (h2 : S1x16.ShapeCasts S1x16) (hb2 : S1x16.Broadcasts S2000x16) (p : Fin 2000) (r : Fin 16) :
    (mulf (broadcast S2000x16 (FloatOps.ofBits (F := Ideal) .f32 0xBB800000#32))
      (addf (FloatOps.matmul dot_S2000x256_S256x16_S2000x16_1_0_0_1_n_n (some ContractPrecision.fp32)
          (concatenate S2000x256 1 [⟨S2000x128, mulf (logistic x0) (logistic x0)⟩, ⟨S2000x128, logistic x0⟩] hcat)
          (shapeCast S256x16 x1 h1) (constant S2000x16 .f32 0x00000000#32))
        (broadcastTo S2000x16 (shapeCast S1x16 x2 h2) hb2))) (ix2 p r) = strength x0 x1 x2 p r := by
  have hm : FloatOps.matmul dot_S2000x256_S256x16_S2000x16_1_0_0_1_n_n (some ContractPrecision.fp32)
          (concatenate S2000x256 1 [⟨S2000x128, mulf (logistic x0) (logistic x0)⟩, ⟨S2000x128, logistic x0⟩] hcat)
          (shapeCast S256x16 x1 h1) (constant S2000x16 .f32 0x00000000#32) (ix2 p r)
        = (∑ d : Fin 128, (Ideal.logistic (x0 (ix2 p d)) * Ideal.logistic (x0 (ix2 p d))) * x1 (ix2 (RuleNet.lo d) r))
          + (∑ d : Fin 128, Ideal.logistic (x0 (ix2 p d)) * x1 (ix2 (RuleNet.hi d) r)) := by
    refine (MatProd.matmul_zero_entry _ _ plainA.hr plainA.hs plainA.hl0 plainA.hl1 plainA.hr0 plainA.hr1 _ _ p r).trans ?_
    unfold MatProd.entry
    refine (sum_256 _).trans (congrArg₂ (· + ·) (Finset.sum_congr rfl fun d _ => ?_) (Finset.sum_congr rfl fun d _ => ?_))
    · rw [ConcatCols.left _ _ hcat (ix2 p (RuleNet.lo d)) p d rfl rfl, shapeCast_self]; rfl
    · rw [ConcatCols.right _ _ hcat (ix2 p (RuleNet.hi d)) p d rfl rfl, shapeCast_self]; rfl
  have hb : (broadcastTo S2000x16 (shapeCast S1x16 x2 h2) hb2) (ix2 p r) = x2 (ix2 (0 : Fin 1) r) := by
    rw [broadcastTo_1b_ab_apply, shapeCast_self]
  show Ideal.ofBits .f32 0xBB800000#32 * (_ + _) = _
  rw [hm, hb]
  rfl

/-- The proposals array at (p, j): row p of the input block against column j of the 128 × 512 table, plus the one-row
    table, through the logistic function. -/
theorem cq_entry (x0 : FVec Ideal S2000x128 .f32) (x3 : FVec Ideal S128x512 .bf16) (x4 : FVec Ideal S1x512 .f32)
    (ht : FTy.bf16.bits < FTy.f32.bits) (h3 : S128x512.ShapeCasts S128x512) (h4 : S1x512.ShapeCasts S1x512)
    (hb4 : S1x512.Broadcasts S2000x512) (p : Fin 2000) (j : Fin 512) :
    (logistic (addf (FloatOps.matmul dot_S2000x128_S128x512_S2000x512_1_0_0_1_n_n none (truncf FTy.bf16 x0 ht)
        (shapeCast S128x512 x3 h3) (constant S2000x512 .f32 0x00000000#32))
      (broadcastTo S2000x512 (shapeCast S1x512 x4 h4) hb4))) (ix2 p j)
      = Ideal.logistic ((∑ d : Fin 128, x0 (ix2 p d) * x3 (ix2 d j)) + x4 (ix2 (0 : Fin 1) j)) := by
  have hm : FloatOps.matmul dot_S2000x128_S128x512_S2000x512_1_0_0_1_n_n none (truncf FTy.bf16 x0 ht)
        (shapeCast S128x512 x3 h3) (constant S2000x512 .f32 0x00000000#32) (ix2 p j)
        = ∑ d : Fin 128, x0 (ix2 p d) * x3 (ix2 d j) := by
    refine (MatProd.matmul_zero_entry _ _ plainB.hr plainB.hs plainB.hl0 plainB.hl1 plainB.hr0 plainB.hr1 _ _ p j).trans ?_
    unfold MatProd.entry
    refine Finset.sum_congr rfl fun d _ => ?_
    rw [shapeCast_self]; rfl
  have hb : (broadcastTo S2000x512 (shapeCast S1x512 x4 h4) hb4) (ix2 p j) = x4 (ix2 (0 : Fin 1) j) := by
    rw [broadcastTo_1b_ab_apply, shapeCast_self]
  show Ideal.logistic (_ + _) = _
  rw [hm, hb]

/-- The tail of the body at (p, q): the softmax of row p of the strength array, spread over the 512 positions by the
    16 × 512 table, times the proposals, folded by the 512 × 32 table, through the logistic function. -/
theorem tail_entry (Z : FVec Ideal S2000x16 .f32) (cqA : FVec Ideal S2000x512 .f32) (x5 : FVec Ideal S16x512 .f32)
    (x6 : FVec Ideal S512x32 .f32) (hred : S2000x16.Reduces [1] S2000) (hφ : FKind.Formats .f32)
    (haccM : (0xFF800000#32 : BitVec 32) = 0xFF800000#32) (haccS : (0x00000000#32 : BitVec 32) = 0x00000000#32)
    (hc : S2000.ShapeCasts S2000x1) (hb : S2000x1.Broadcasts S2000x16) (h5 : S16x512.ShapeCasts S16x512)
    (h6 : S512x32.ShapeCasts S512x32) (p : Fin 2000) (q : Fin 32) :
    logistic (FloatOps.matmul dot_S2000x512_S512x32_S2000x32_1_0_0_1_n_n (some ContractPrecision.fp32)
      (mulf cqA (FloatOps.matmul dot_S2000x16_S16x512_S2000x512_1_0_0_1_n_n (some ContractPrecision.fp32)
        (divf (exp (subf Z (broadcastTo S2000x16 (shapeCast S2000x1
                (maximumf (broadcast S2000 (FloatOps.ofBits (F := Ideal) .f32 0xFF800000#32))
                  (multiReduction .maximumf [1] S2000 Z 0xFF800000#32 hred hφ haccM)) hc) hb)))
          (broadcastTo S2000x16 (shapeCast S2000x1
            (multiReduction .add [1] S2000
              (exp (subf Z (broadcastTo S2000x16 (shapeCast S2000x1
                (maximumf (broadcast S2000 (FloatOps.ofBits (F := Ideal) .f32 0xFF800000#32))
                  (multiReduction .maximumf [1] S2000 Z 0xFF800000#32 hred hφ haccM)) hc) hb)))
              0x00000000#32 hred hφ haccS) hc) hb))
        (shapeCast S16x512 x5 h5) (constant S2000x512 .f32 0x00000000#32)))
      (shapeCast S512x32 x6 h6) (constant S2000x32 .f32 0x00000000#32)) (ix2 p q)
    = Ideal.logistic (∑ j : Fin 512,
        (cqA (ix2 p j) * ∑ r' : Fin 16, RuleNet.smax (fun k => Z (ix2 p k)) r' * x5 (ix2 r' j)) * x6 (ix2 j q)) := by
  simp only [shapeCast_self]
  refine (congrArg Ideal.logistic
    (MatProd.matmul_zero_entry _ _ plainD.hr plainD.hs plainD.hl0 plainD.hl1 plainD.hr0 plainD.hr1 _ _ p q)).trans ?_
  unfold MatProd.entry
  refine congrArg Ideal.logistic (Finset.sum_congr rfl fun j _ => ?_)
  refine congrArg (· * x6 (ix2 j q)) ?_
  refine (congrArg (cqA (ix2 p j) * ·)
    (MatProd.matmul_zero_entry _ _ plainC.hr plainC.hs plainC.hl0 plainC.hl1 plainC.hr0 plainC.hr1 _ _ p j)).trans ?_
  unfold MatProd.entry
  refine congrArg (cqA (ix2 p j) * ·) (Finset.sum_congr rfl fun r' _ => ?_)
  exact congrArg (· * x5 (ix2 r' j)) (softmax_chain Z hred hφ haccM haccS hc hb p r')

/-- THE BODY AT AN ENTRY: what the kernel's body stores at (p, q) of its output block, from its seven input blocks. -/
theorem body_entry (x0 : FVec Ideal S2000x128 .f32) (x1 : FVec Ideal S256x16 .f32) (x2 : FVec Ideal S1x16 .f32)
    (x3 : FVec Ideal S128x512 .bf16) (x4 : FVec Ideal S1x512 .f32) (x5 : FVec Ideal S16x512 .f32) (x6 : FVec Ideal S512x32 .f32)
    (p : Fin 2000) (q : Fin 32) :
    k0_pay1 (F := Ideal) (k0_pay2 (F := Ideal) x0 x1 x2 x3 x4 x5) x6 (ix2 p q)
      = Ideal.logistic (∑ j : Fin 512,
          (Ideal.logistic ((∑ d : Fin 128, x0 (ix2 p d) * x3 (ix2 d j)) + x4 (ix2 (0 : Fin 1) j))
            * (∑ r' : Fin 16, RuleNet.smax (strength x0 x1 x2 p) r' * x5 (ix2 r' j))) * x6 (ix2 j q)) := by
  unfold k0_pay1 k0_pay2
  simp only [matmul]
  refine (tail_entry _ _ x5 x6 _ _ _ _ _ _ _ _ p q).trans ?_
  refine congrArg Ideal.logistic (Finset.sum_congr rfl fun j _ => ?_)
  refine congrArg (· * x6 (ix2 j q)) ?_
  refine congrArg₂ (· * ·) (cq_entry x0 x3 x4 _ _ _ _ p j) ?_
  refine Finset.sum_congr rfl fun r' _ => congrArg (· * x5 (ix2 r' j)) ?_
  exact congrArg (fun f => RuleNet.smax f r') (funext fun k => strength_entry x0 x1 x2 _ _ _ _ p k)

/-- THE BODY'S ENTRY IS THE NETWORK'S.  If row `p` of the input block is row `b` of `X`, the 256 × 16 table holds the
    reciprocal squared widths over −2 · centre · reciprocal squared width, the one-row table the sums of centre² ·
    reciprocal squared width, the 128 × 512 table `W` with (rule, output) laid along its columns, the one-row table of
    512 the biases laid the same way, and the last two tables the indicators of `r' = j / 32` and of `j % 32 = o`, then
    the body's entry (p, q) is the network's result at (b, q) with the expanded firing strengths: the two indicator
    tables spread the sixteen weights over the 512 positions and fold the 512 products back onto the 32 outputs. -/
theorem point_value (X : RuleNet.SX.Idx → EReal) (C Wd : RuleNet.SC.Idx → EReal) (W : RuleNet.SW.Idx → EReal)
    (Bi : RuleNet.SB.Idx → EReal)
    (x0 : FVec Ideal S2000x128 .f32) (x1 : FVec Ideal S256x16 .f32) (x2 : FVec Ideal S1x16 .f32)
    (x3 : FVec Ideal S128x512 .bf16) (x4 : FVec Ideal S1x512 .f32) (x5 : FVec Ideal S16x512 .f32) (x6 : FVec Ideal S512x32 .f32)
    (b : Fin 50000) (p : Fin 2000) (q : Fin 32)
    (h0 : ∀ d : Fin 128, x0 (ix2 p d) = X (ix2 b d))
    (h1t : ∀ (d : Fin 128) (r : Fin 16), x1 (ix2 (RuleNet.lo d) r) = RuleNet.iw2 Wd r d)
    (h1b : ∀ (d : Fin 128) (r : Fin 16), x1 (ix2 (RuleNet.hi d) r)
      = Ideal.ofBits .f32 0xC0000000#32 * (C (ix2 r d) * RuleNet.iw2 Wd r d))
    (h2 : ∀ r : Fin 16, x2 (ix2 (0 : Fin 1) r) = ∑ d : Fin 128, (C (ix2 r d) * C (ix2 r d)) * RuleNet.iw2 Wd r d)
    (h3 : ∀ (d : Fin 128) (r : Fin 16) (o : Fin 32), x3 (ix2 d (RuleNet.flat r o)) = W (ix3 r o d))
    (h4 : ∀ (r : Fin 16) (o : Fin 32), x4 (ix2 (0 : Fin 1) (RuleNet.flat r o)) = Bi (ix2 r o))
    (h5 : ∀ (r' : Fin 16) (j : Fin 512), x5 (ix2 r' j) = if r'.val = j.val / 32 then (1 : EReal) else 0)
    (h6 : ∀ (j : Fin 512) (o : Fin 32), x6 (ix2 j o) = if j.val % 32 = o.val then (1 : EReal) else 0) :
    k0_pay1 (F := Ideal) (k0_pay2 (F := Ideal) x0 x1 x2 x3 x4 x5) x6 (ix2 p q)
      = RuleNet.G (RuleNet.fsKer X C Wd) X W Bi (ix2 b q) := by
  rw [body_entry, RuleNet.G_ix2]
  refine congrArg Ideal.logistic ?_
  have hs : strength x0 x1 x2 p = RuleNet.fsKer X C Wd b := funext fun r => by
    unfold strength RuleNet.fsKer RuleNet.xs
    simp only [h0, h1t, h1b, h2]
  rw [hs]
  have hfold := RuleNet.fold_tables
    (fun j => Ideal.logistic ((∑ d : Fin 128, x0 (ix2 p d) * x3 (ix2 d j)) + x4 (ix2 (0 : Fin 1) j)))
    (RuleNet.smax (RuleNet.fsKer X C Wd b)) q
  simp only [h5, h6]
  refine hfold.trans (Finset.sum_congr rfl fun r _ => ?_)
  unfold RuleNet.cq
  simp only [h0, h3, h4]

end Cert.KernelIdeal.BodyValue

end
-- ==== Proof.Consts.lean ====
/-
  The float words the two programs spell whose values a law needs, as the extended reals they denote: 1, −1/2, 128, −2,
  −1/256.  (The zero word is the library's `Ideal.ofBits_zero_f32`.)  One module states them all, so that the unfolding of
  the pattern decoder happens once.
-/
import Idealize.ShloMosaic.PureOps.Ideal

noncomputable section

namespace RuleNet.Consts

open Idealize.ShloMosaic

theorem ofBits_one : Ideal.ofBits .f32 0x3F800000#32 = 1 := by
  simp [Ideal.ofBits, Ideal.ieee, -EReal.coe_mul]; norm_num

theorem ofBits_one_coe : Ideal.ofBits .f32 0x3F800000#32 = ((1 : ℝ) : EReal) := by
  rw [ofBits_one]; rfl

theorem ofBits_mhalf : Ideal.ofBits .f32 0xBF000000#32 = ((-(1 / 2) : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_mtwo : Ideal.ofBits .f32 0xC0000000#32 = ((-2 : ℝ) : EReal) := by
  simp [Ideal.ofBits, Ideal.ieee, -EReal.coe_mul]; norm_num

theorem ofBits_minv256 : Ideal.ofBits .f32 0xBB800000#32 = ((-(1 / 256) : ℝ) : EReal) := by
  simp [Ideal.ofBits, Ideal.ieee, -EReal.coe_mul]; norm_num

end RuleNet.Consts

end
-- ==== Proof.TablesFloat.lean ====
/-
  Four parameter tables that the kernel program computes before its one region, each read at an index as a function of
  the program's argument arrays.

  From the centres c, the widths w, the matrices W and the biases b the program forms, entry by entry,
  q = 1 / (w · w) (the word of 1.0 spread over the array, divided by the squared width), and then
    * a 256 × 16 array whose rows 0 … 127 are the transpose of q and whose rows 128 … 255 are the word of −2.0 times the
      transpose of c · q, the two joined along the first axis;
    * a 1 × 16 array of the row sums over the 128 coordinates of (c · c) · q (a host sum is the initial value, here the
      zero word, plus the sum), kept as a column and reshaped to a row;
    * a 128 × 512 array: W with its axes permuted to (coordinate, rule, output), the last two axes flattened row-major
      (column 32 r + o), then a change of float format, which is the identity on extended reals;
    * a 1 × 512 array: b flattened row-major.
  Each table is first written as the term its chain of operations computes (`e…`, by running the list of host
  operations), and each operation is then read at an index given by its coordinates, over variables of the literal
  array types.
-/
import proofs.«152940_j33474975105109_2_alg».proof.Proof.KArgs
import proofs.«152940_j33474975105109_2_alg».proof.Proof.Index
import proofs.«152940_j33474975105109_2_alg».proof.Proof.Consts
import Idealize.ShloMosaic.Lib.StableHlo.Run
import Idealize.ShloMosaic.Lib.IdealHost
import Idealize.ShloMosaic.Lib.Pipeline.Value

noncomputable section

open scoped BigOperators

namespace Cert.KernelIdeal.Tables

open Cert.KernelIdeal Cert.KernelIdeal.Gen Cert.KernelIdeal.Args Idealize.ShloMosaic Idealize.ShloMosaic.TcCoe Idealize.SL.Sem Idealize.ShloMosaic.ValueIdx

/-! ## The operations' terms, over variables -/

/-- The reciprocal of the squared width, as the program spells it. -/
def recipSq (Wd : FVec Ideal S16x128 .f32) : FVec Ideal S16x128 .f32 :=
  Host.divf (F := Ideal) (broadcastInDim S16x128 ![] bcast_S_S16x128 (constant (F := Ideal) S_ .f32 0x3F800000#32))
    (mulf Wd Wd)

theorem recipSq_apply (Wd : FVec Ideal S16x128 .f32) (r : Fin 16) (d : Fin 128) :
    recipSq Wd (ix2 r d) = RuleNet.iw2 Wd r d := by
  unfold recipSq RuleNet.iw2
  rw [hostDivf_apply, broadcastInDim_scalar_apply, constant_apply, mulf_apply]

/-- The 256 × 16 table: the transpose of `q` above the word of −2.0 times the transpose of `c · q`. -/
def antTab (C Q : FVec Ideal S16x128 .f32) : FVec Ideal S256x16 .f32 :=
  concatenate S256x16 0
    [⟨S128x16, transpose S128x16 [1, 0] Q transposes_S16x128_S128x16_1_0⟩,
     ⟨S128x16, mulf (broadcastInDim S128x16 ![] bcast_S_S128x16 (constant (F := Ideal) S_ .f32 0xC0000000#32))
        (transpose S128x16 [1, 0] (mulf C Q) transposes_S16x128_S128x16_1_0)⟩]
    concatenates_S128x16_S128x16_S256x16_d0

/-- A 16 × 128 array transposed, at (d, r): the array at (r, d). -/
theorem transpose_16x128_apply (Q : FVec Ideal S16x128 .f32) (d : Fin 128) (r : Fin 16) :
    transpose S128x16 [1, 0] Q transposes_S16x128_S128x16_1_0 (ix2 d r) = Q (ix2 r d) :=
  transpose_apply [1, 0] Q transposes_S16x128_S128x16_1_0 (ix2 d r) (ix2 r d)
    (fun b => match b with | ⟨0, _⟩ => rfl | ⟨1, _⟩ => rfl)

theorem antTab_top (C Q : FVec Ideal S16x128 .f32) (d : Fin 128) (r : Fin 16) :
    antTab C Q (ix2 (RuleNet.lo d) r) = Q (ix2 r d) := by
  unfold antTab
  refine (concatenate_pair_apply_left (t := S256x16) (0 : Fin 2) _ _ concatenates_S128x16_S128x16_S256x16_d0
    (ix2 (RuleNet.lo d) r) rfl (ix2 d r) (fun b => match b with | ⟨0, _⟩ => rfl | ⟨1, _⟩ => rfl)).trans ?_
  exact transpose_16x128_apply Q d r

theorem antTab_bot (C Q : FVec Ideal S16x128 .f32) (d : Fin 128) (r : Fin 16) :
    antTab C Q (ix2 (RuleNet.hi d) r) = Ideal.ofBits .f32 0xC0000000#32 * (C (ix2 r d) * Q (ix2 r d)) := by
  unfold antTab
  refine (concatenate_pair_apply_right (t := S256x16) (0 : Fin 2) _ _ concatenates_S128x16_S128x16_S256x16_d0
    (ix2 (RuleNet.hi d) r) rfl rfl (ix2 d r)
    (fun b => match b with | ⟨0, _⟩ => fun hb => absurd rfl hb | ⟨1, _⟩ => fun _ => rfl)
    (by show d.val + 128 = 128 + d.val; omega)).trans ?_
  rw [mulf_apply, broadcastInDim_scalar_apply, constant_apply, transpose_16x128_apply, mulf_apply]

/-- The 1 × 16 table: the row sums of `(c · c) · q` from the zero word, kept as a column, reshaped to a row. -/
def kTab (C Q : FVec Ideal S16x128 .f32) : FVec Ideal S1x16 .f32 :=
  shapeCast S1x16
    (broadcastInDim S16x1 ![0] bcast_S16_S16x1_0
      (Host.reduceAdd (F := Ideal) (mulf (mulf C C) Q) (constant (F := Ideal) S_ .f32 0x00000000#32)
        reducesTo_S16x128_S16_d1 h_S_))
    shapeCasts_S16x1_S1x16

/-- The host's sum of a 16 × 128 array along its second axis from the zero word, at row `r`. -/
theorem rowSum_apply (Z : FVec Ideal S16x128 .f32) (r : Fin 16) :
    Host.reduceAdd (F := Ideal) Z (constant (F := Ideal) S_ .f32 0x00000000#32) reducesTo_S16x128_S16_d1 h_S_ (ix1 r)
      = ∑ d : Fin 128, Z (ix2 r d) := by
  have hR : S16x128.Reduces [1] S16 := by decide
  rw [hostReduceAdd_apply, Ideal.hostReduceAdd_single reducesTo_S16x128_S16_d1 hR, constant_apply,
    Ideal.ofBits_zero_f32, zero_add]
  exact Finset.sum_congr rfl fun k _ => congrArg Z (funext fun ax => Fin.ext (by
    match ax with | ⟨0, _⟩ => rfl | ⟨1, _⟩ => rfl))

theorem kTab_apply (C Q : FVec Ideal S16x128 .f32) (u : Fin 1) (r : Fin 16) :
    kTab C Q (ix2 u r) = ∑ d : Fin 128, (C (ix2 r d) * C (ix2 r d)) * Q (ix2 r d) := by
  unfold kTab
  refine (shapeCast_apply _ shapeCasts_S16x1_S1x16 (ix2 u r) (ix2 r (0 : Fin 1)) (by
    have hu : u.val = 0 := by omega
    rw [Shape.rowMajor_val_two, Shape.rowMajor_val_two]
    show r.val * 1 + 0 = u.val * 16 + r.val
    omega)).trans ?_
  refine (broadcastInDim_apply ![0] bcast_S16_S16x1_0 _ (ix2 r (0 : Fin 1)) (ix1 r)
    (fun a => match a with | ⟨0, _⟩ => rfl)).trans ?_
  rw [rowSum_apply]
  exact Finset.sum_congr rfl fun d _ => by rw [mulf_apply, mulf_apply]

/-- The 128 × 512 table: `W` with its axes permuted to (coordinate, rule, output), flattened, its format changed. -/
def wTab (W : FVec Ideal S16x32x128 .f32) : FVec Ideal S128x512 .bf16 :=
  truncf .bf16
    (shapeCast S128x512 (transpose S128x16x32 [2, 0, 1] W transposes_S16x32x128_S128x16x32_2_0_1)
      shapeCasts_S128x16x32_S128x512)
    bitsLt_bf16_f32

theorem wTab_apply (W : FVec Ideal S16x32x128 .f32) (d : Fin 128) (r : Fin 16) (o : Fin 32) :
    wTab W (ix2 d (RuleNet.flat r o)) = W (ix3 r o d) := by
  unfold wTab
  rw [truncf_apply]
  refine (shapeCast_apply _ shapeCasts_S128x16x32_S128x512 (ix2 d (RuleNet.flat r o)) (ix3 d r o) (by
    rw [Shape.rowMajor_val_three, Shape.rowMajor_val_two]
    show (d.val * 16 + r.val) * 32 + o.val = d.val * 512 + (r.val * 32 + o.val)
    omega)).trans ?_
  exact transpose_apply [2, 0, 1] W transposes_S16x32x128_S128x16x32_2_0_1 (ix3 d r o) (ix3 r o d)
    (fun b => match b with | ⟨0, _⟩ => rfl | ⟨1, _⟩ => rfl | ⟨2, _⟩ => rfl)

/-- The 1 × 512 table: `b` flattened. -/
theorem bTab_apply (B : FVec Ideal S16x32 .f32) (u : Fin 1) (r : Fin 16) (o : Fin 32) :
    shapeCast S1x512 B shapeCasts_S16x32_S1x512 (ix2 u (RuleNet.flat r o)) = B (ix2 r o) :=
  shapeCast_apply B shapeCasts_S16x32_S1x512 (ix2 u (RuleNet.flat r o)) (ix2 r o) (by
    have hu : u.val = 0 := by omega
    rw [Shape.rowMajor_val_two, Shape.rowMajor_val_two]
    show r.val * 32 + o.val = u.val * 512 + (r.val * 32 + o.val)
    omega)

/-! ## The tables as the region finds them -/

variable (m : (ℓ : Loc nD τ sig) → Buf (Elt Ideal) ℓ) (c : Dev nD)

theorem e13 : (V m c main_v13 : S256x16.Idx → EReal) = antTab (aC m c) (recipSq (aWd m c)) := by
  dsimp only [Gen.V, Gen.hostOps0]; after_results; rfl

theorem e7 : (V m c main_v7 : S1x16.Idx → EReal) = kTab (aC m c) (recipSq (aWd m c)) := by
  dsimp only [Gen.V, Gen.hostOps0]; after_results; rfl

theorem e16 : (V m c main_v16 : S128x512.Idx → EReal) = wTab (aW m c) := by
  dsimp only [Gen.V, Gen.hostOps0]; after_results; rfl

theorem e17 : (V m c main_v17 : S1x512.Idx → EReal) = shapeCast S1x512 (aBi m c) shapeCasts_S16x32_S1x512 := by
  dsimp only [Gen.V, Gen.hostOps0]; after_results; rfl

theorem antRhs_top (d : Fin 128) (r : Fin 16) :
    (V m c main_v13 : S256x16.Idx → EReal) (ix2 (RuleNet.lo d) r) = RuleNet.iw2 (aWd m c) r d := by
  rw [e13, antTab_top, recipSq_apply]

theorem antRhs_bot (d : Fin 128) (r : Fin 16) :
    (V m c main_v13 : S256x16.Idx → EReal) (ix2 (RuleNet.hi d) r)
      = Ideal.ofBits .f32 0xC0000000#32 * (aC m c (ix2 r d) * RuleNet.iw2 (aWd m c) r d) := by
  rw [e13, antTab_bot, recipSq_apply]

theorem kRow (u : Fin 1) (r : Fin 16) :
    @Eq EReal ((V m c main_v7 : S1x16.Idx → EReal) (ix2 u r))
      (∑ d : Fin 128, (aC m c (ix2 r d) * aC m c (ix2 r d)) * RuleNet.iw2 (aWd m c) r d) := by
  rw [e7, kTab_apply]
  exact Finset.sum_congr rfl fun d _ => by rw [recipSq_apply]

theorem wT (d : Fin 128) (r : Fin 16) (o : Fin 32) :
    (V m c main_v16 : S128x512.Idx → EReal) (ix2 d (RuleNet.flat r o)) = aW m c (ix3 r o d) := by
  rw [e16, wTab_apply]

theorem bFlat (u : Fin 1) (r : Fin 16) (o : Fin 32) :
    (V m c main_v17 : S1x512.Idx → EReal) (ix2 u (RuleNet.flat r o)) = aBi m c (ix2 r o) := by
  rw [e17, bTab_apply]

end Cert.KernelIdeal.Tables

end
-- ==== Proof.TablesUnit.lean ====
/-
  The kernel program's two constant tables of zeros and ones, read entry by entry.

  Before its kernel region the program builds on the host
    * the 16 × 16 identity (an iota along axis 0, plus a zero, compared for equality with an iota along axis 1, the bit
      turned into a float by the unsigned conversion: 1 or 0), broadcast to [16, 16, 32] along a new last axis and
      reshaped to [16, 512]: row-major, position `32 a + o'` of row `r'` holds entry `(r', a)` of the identity, so the
      entry at `(r', j)` is 1 exactly when `r' = j / 32`;
    * the 32 × 32 identity, reshaped to [1, 32, 1, 32], broadcast to [16, 32, 1, 32] and reshaped to [512, 32]:
      row-major, row `32 a + b'` holds row `b'` of the identity, so the entry at `(j, o)` is 1 exactly when
      `j % 32 = o`.
  Each layout operation is read at one index (the reshape by equal row-major positions, the broadcast by dropping the
  new axes); the comparison of two 32-bit words of numbers below 512 is the comparison of the numbers.
-/
import proofs.«152940_j33474975105109_2_alg».proof.Proof.KArgs
import proofs.«152940_j33474975105109_2_alg».proof.Proof.Index
import Idealize.ShloMosaic.Lib.StableHlo.Run
import Idealize.ShloMosaic.Lib.Pipeline.Value

noncomputable section

namespace Cert.KernelIdeal.Tables

open Cert.KernelIdeal Cert.KernelIdeal.Gen Idealize.ShloMosaic Idealize.ShloMosaic.TcCoe Idealize.SL.Sem Idealize.ShloMosaic.ValueIdx

/-- Two numbers below 512, written as 32-bit words (a zero word added to the first), compared for equality, the bit
    read as an unsigned number: 1 when the numbers are equal, 0 otherwise. -/
theorem bit_eq (a b : Nat) (ha : a < 512) (hb : b < 512) :
    (((IntOp.cmpi .eq (IntOp.addi (BitVec.ofNat 32 a) 0#32) (BitVec.ofNat 32 b)).toNat : ℝ) : EReal)
      = if a = b then (1 : EReal) else 0 := by
  have hadd : IntOp.addi (BitVec.ofNat 32 a) 0#32 = BitVec.ofNat 32 a := by
    unfold IntOp.addi
    exact BitVec.add_zero _
  rw [hadd]
  show (((BitVec.ofBool (BitVec.ofNat 32 a == BitVec.ofNat 32 b)).toNat : ℝ) : EReal) = _
  by_cases h : a = b
  · subst h
    rw [if_pos rfl, beq_self_eq_true]
    show (((1 : ℕ) : ℝ) : EReal) = 1
    norm_num
  · have hne : (BitVec.ofNat 32 a == BitVec.ofNat 32 b) = false := by
      rw [beq_eq_false_iff_ne]
      intro he
      have h2 := congrArg BitVec.toNat he
      rw [BitVec.toNat_ofNat, BitVec.toNat_ofNat, Nat.mod_eq_of_lt (by omega), Nat.mod_eq_of_lt (by omega)] at h2
      exact h h2
    rw [if_neg h, hne]
    show (((0 : ℕ) : ℝ) : EReal) = 0
    norm_num

/-- The first table as the host operations' term, read at `(r', j)`. -/
theorem eTab_term (r' : Fin 16) (j : Fin 512) :
    shapeCast S16x512 (broadcastInDim S16x16x32 ![0, 1] bcast_S16x16_S16x16x32_0_1
        (uitofp (F := Ideal) .f32 (cmpi .eq (addi (iotaInDim S16x16 32 0) (broadcastInDim S16x16 ![] bcast_S_S16x16 (constantI S_ 32 0#32)))
          (iotaInDim S16x16 32 1)))) shapeCasts_S16x16x32_S16x512 (ix2 r' j)
      = if r'.val = j.val / 32 then (1 : EReal) else 0 := by
  have hj := j.isLt
  have hr := r'.isLt
  have hq : j.val / 32 < 16 := by omega
  have hm : j.val % 32 < 32 := by omega
  -- the reshape: position 512 r' + j of [16, 512] is position ((r' · 16) + j / 32) · 32 + j % 32 of [16, 16, 32]
  refine (shapeCast_apply _ _ (ix2 r' j) (ix3 r' (⟨j.val / 32, hq⟩ : Fin 16) (⟨j.val % 32, hm⟩ : Fin 32)) ?_).trans ?_
  · rw [Shape.rowMajor_val_three, Shape.rowMajor_val_two]
    show (r'.val * 16 + j.val / 32) * 32 + j.val % 32 = r'.val * 512 + j.val
    omega
  -- the broadcast along the new last axis
  refine (broadcastInDim_apply _ _ _ (ix3 r' (⟨j.val / 32, hq⟩ : Fin 16) (⟨j.val % 32, hm⟩ : Fin 32))
    (ix2 r' (⟨j.val / 32, hq⟩ : Fin 16)) ?_).trans ?_
  · intro a
    match a with
    | ⟨0, _⟩ => rfl
    | ⟨1, _⟩ => rfl
  -- the identity's entry
  exact bit_eq r'.val (j.val / 32) (by omega) (by omega)

/-- The second table as the host operations' term, read at `(j, o)`. -/
theorem sTab_term (j : Fin 512) (o : Fin 32) :
    shapeCast S512x32 (broadcastInDim S16x32x1x32 ![0, 1, 2, 3] bcast_S1x32x1x32_S16x32x1x32_0_1_2_3
        (shapeCast S1x32x1x32
          (uitofp (F := Ideal) .f32 (cmpi .eq (addi (iotaInDim S32x32 32 0) (broadcastInDim S32x32 ![] bcast_S_S32x32 (constantI S_ 32 0#32)))
            (iotaInDim S32x32 32 1))) shapeCasts_S32x32_S1x32x1x32)) shapeCasts_S16x32x1x32_S512x32 (ix2 j o)
      = if j.val % 32 = o.val then (1 : EReal) else 0 := by
  have hj := j.isLt
  have ho := o.isLt
  have hq : j.val / 32 < 16 := by omega
  have hm : j.val % 32 < 32 := by omega
  -- the reshape: position 32 j + o of [512, 32] is position (((j / 32) · 32 + j % 32) · 1 + 0) · 32 + o of [16, 32, 1, 32]
  refine (shapeCast_apply _ _ (ix2 j o)
    (ix4 (⟨j.val / 32, hq⟩ : Fin 16) (⟨j.val % 32, hm⟩ : Fin 32) (0 : Fin 1) o) ?_).trans ?_
  · rw [Shape.rowMajor_val_four, Shape.rowMajor_val_two]
    show ((j.val / 32 * 32 + j.val % 32) * 1 + 0) * 32 + o.val = j.val * 32 + o.val
    omega
  -- the broadcast along the leading axis
  refine (broadcastInDim_apply _ _ _ (ix4 (⟨j.val / 32, hq⟩ : Fin 16) (⟨j.val % 32, hm⟩ : Fin 32) (0 : Fin 1) o)
    (ix4 (0 : Fin 1) (⟨j.val % 32, hm⟩ : Fin 32) (0 : Fin 1) o) ?_).trans ?_
  · intro a
    match a with
    | ⟨0, _⟩ => rfl
    | ⟨1, _⟩ => rfl
    | ⟨2, _⟩ => rfl
    | ⟨3, _⟩ => rfl
  -- the reshape of the 32 × 32 identity to [1, 32, 1, 32]
  refine (shapeCast_apply _ _ (ix4 (0 : Fin 1) (⟨j.val % 32, hm⟩ : Fin 32) (0 : Fin 1) o)
    (ix2 (⟨j.val % 32, hm⟩ : Fin 32) o) ?_).trans ?_
  · rw [Shape.rowMajor_val_four, Shape.rowMajor_val_two]
    show j.val % 32 * 32 + o.val = ((0 * 32 + j.val % 32) * 1 + 0) * 32 + o.val
    omega
  -- the identity's entry
  exact bit_eq (j.val % 32) o.val (by omega) (by omega)

variable (m : (ℓ : Loc nD τ sig) → Buf (Elt Ideal) ℓ) (c : Dev nD)

/-- What the first table's buffer holds when the region is entered: the host operations' term. -/
theorem v25_eq :
    (V m c main_v25 : S16x512.Idx → EReal) =
      shapeCast S16x512 (broadcastInDim S16x16x32 ![0, 1] bcast_S16x16_S16x16x32_0_1
        (uitofp (F := Ideal) .f32 (cmpi .eq (addi (iotaInDim S16x16 32 0) (broadcastInDim S16x16 ![] bcast_S_S16x16 (constantI S_ 32 0#32)))
          (iotaInDim S16x16 32 1)))) shapeCasts_S16x16x32_S16x512 := by
  dsimp only [Gen.V, Gen.hostOps0]
  after_results
  rfl

/-- What the second table's buffer holds when the region is entered: the host operations' term. -/
theorem v34_eq :
    (V m c main_v34 : S512x32.Idx → EReal) =
      shapeCast S512x32 (broadcastInDim S16x32x1x32 ![0, 1, 2, 3] bcast_S1x32x1x32_S16x32x1x32_0_1_2_3
        (shapeCast S1x32x1x32
          (uitofp (F := Ideal) .f32 (cmpi .eq (addi (iotaInDim S32x32 32 0) (broadcastInDim S32x32 ![] bcast_S_S32x32 (constantI S_ 32 0#32)))
            (iotaInDim S32x32 32 1))) shapeCasts_S32x32_S1x32x1x32)) shapeCasts_S16x32x1x32_S512x32 := by
  dsimp only [Gen.V, Gen.hostOps0]
  after_results
  rfl

/-- The first table: entry `(r', j)` is 1 when `r' = j / 32`, else 0. -/
theorem eTab (r' : Fin 16) (j : Fin 512) :
    (V m c main_v25 : S16x512.Idx → EReal) (ix2 r' j) = if r'.val = j.val / 32 then (1 : EReal) else 0 :=
  (congrFun (v25_eq m c) (ix2 r' j)).trans (eTab_term r' j)

/-- The second table: entry `(j, o)` is 1 when `j % 32 = o`, else 0. -/
theorem sTab (j : Fin 512) (o : Fin 32) :
    (V m c main_v34 : S512x32.Idx → EReal) (ix2 j o) = if j.val % 32 = o.val then (1 : EReal) else 0 :=
  (congrFun (v34_eq m c) (ix2 j o)).trans (sTab_term j o)

end Cert.KernelIdeal.Tables

end
-- ==== Proof.Blocks.lean ====
/-
  From the blocks to the array: after the kernel program's run its result array holds the rule network's result.

  The program's one kernel region runs over 25 grid points; point `t` reads rows 2000 t … 2000 t + 1999 of the input
  array (window 0), the six parameter tables whole (windows 1–6: their block index is (0, 0) at every point), and writes
  rows 2000 t … 2000 t + 1999 of the result array (window 7).  The index maps are decided once over the 25 points
  (`idx_facts`).  A block read is the array read at block index × block size + the coordinate inside the block
  (`blk0` … `blk6`).  With the tables' contents as the host part of the program computes them, the body's entry (p, q)
  at point t is the network's result at (2000 t + p, q) (`flushed_eq`); every row lies in the block of point
  row / 2000 (`cover`), so the array ends holding the network's result (`final`, `run`).
-/
import proofs.«152940_j33474975105109_2_alg».proof.Proof.Gen.KernelIdeal.Value
import proofs.«152940_j33474975105109_2_alg».proof.Proof.KArgs
import proofs.«152940_j33474975105109_2_alg».proof.Proof.BodyValue
import proofs.«152940_j33474975105109_2_alg».proof.Proof.TablesFloat
import proofs.«152940_j33474975105109_2_alg».proof.Proof.TablesUnit

noncomputable section

open scoped BigOperators

namespace Cert.KernelIdeal.Blocks

open Cert.KernelIdeal Cert.KernelIdeal.Gen Cert.KernelIdeal.Args Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The rule network's result on core `c`'s argument arrays, with the expanded firing strengths. -/
abbrev result (c : Dev nD) : RuleNet.SO.Idx → EReal :=
  RuleNet.G (RuleNet.fsKer (aX m c) (aC m c) (aWd m c)) (aX m c) (aW m c) (aBi m c)

/-- The printed index maps, decided over the 25 grid points: the input and the result move one block of rows per point,
    the six tables stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 25 := lt_of_lt_of_eq t.isLt N_0

/-- Row `p` of point `t`'s block is row `2000 t + p` of the array. -/
def row (t : Fin cfg0.N) (p : Fin 2000) : Fin 50000 :=
  ⟨t.val * 2000 + p.val, by have := t_lt t; have := p.isLt; omega⟩

variable (c : Dev nD)

/-- The input block at point `t`, entry (p, d): entry (2000 t + p, d) of the input array. -/
theorem blk0 (t : Fin cfg0.N) (p : Fin 2000) (d : Fin 128) : iblk m c 0 t (ix2 p d) = aX m c (ix2 (row t p) d) := by
  have hidx : ((cfg0.win 0).blk t).view.emb (ix2 p d) = ix2 (row t p) d := funext fun a => Fin.ext (by
    obtain ⟨e0, e1, -⟩ := idx_facts t
    match a with
    | ⟨0, _⟩ => show win0_0.index t (0 : Fin 2) * 2000 + 1 * p.val = t.val * 2000 + p.val; omega
    | ⟨1, _⟩ => show win0_0.index t (1 : Fin 2) * 128 + 1 * d.val = d.val; omega)
  show V m c main_arg0 (((cfg0.win 0).blk t).view.emb (ix2 p d)) = _
  rw [hidx]
  exact congrFun (V_main_arg0 m c) _

/-- A table's block is the whole table at every point. -/
theorem blk1 (t : Fin cfg0.N) (y : S256x16.Idx) : iblk m c 1 t y = (V m c main_v13 : S256x16.Idx → EReal) y := by
  show (V m c main_v13 : S256x16.Idx → EReal) (((cfg0.win 1).blk t).view.emb y) = _
  refine congrArg _ (funext fun a => Fin.ext ?_)
  obtain ⟨-, -, e0, e1, -⟩ := idx_facts t
  match a with
  | ⟨0, _⟩ => show win0_1.index t (0 : Fin 2) * 256 + 1 * (y 0).val = (y 0).val; omega
  | ⟨1, _⟩ => show win0_1.index t (1 : Fin 2) * 16 + 1 * (y 1).val = (y 1).val; omega

theorem blk2 (t : Fin cfg0.N) (y : S1x16.Idx) : iblk m c 2 t y = (V m c main_v7 : S1x16.Idx → EReal) y := by
  show (V m c main_v7 : S1x16.Idx → EReal) (((cfg0.win 2).blk t).view.emb y) = _
  refine congrArg _ (funext fun a => Fin.ext ?_)
  obtain ⟨-, -, -, -, e0, e1, -⟩ := idx_facts t
  match a with
  | ⟨0, _⟩ => show win0_2.index t (0 : Fin 2) * 1 + 1 * (y 0).val = (y 0).val; omega
  | ⟨1, _⟩ => show win0_2.index t (1 : Fin 2) * 16 + 1 * (y 1).val = (y 1).val; omega

theorem blk3 (t : Fin cfg0.N) (y : S128x512.Idx) : iblk m c 3 t y = (V m c main_v16 : S128x512.Idx → EReal) y := by
  show (V m c main_v16 : S128x512.Idx → EReal) (((cfg0.win 3).blk t).view.emb y) = _
  refine congrArg _ (funext fun a => Fin.ext ?_)
  obtain ⟨-, -, -, -, -, -, e0, e1, -⟩ := idx_facts t
  match a with
  | ⟨0, _⟩ => show win0_3.index t (0 : Fin 2) * 128 + 1 * (y 0).val = (y 0).val; omega
  | ⟨1, _⟩ => show win0_3.index t (1 : Fin 2) * 512 + 1 * (y 1).val = (y 1).val; omega

theorem blk4 (t : Fin cfg0.N) (y : S1x512.Idx) : iblk m c 4 t y = (V m c main_v17 : S1x512.Idx → EReal) y := by
  show (V m c main_v17 : S1x512.Idx → EReal) (((cfg0.win 4).blk t).view.emb y) = _
  refine congrArg _ (funext fun a => Fin.ext ?_)
  obtain ⟨-, -, -, -, -, -, -, -, e0, e1, -⟩ := idx_facts t
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem blk5 (t : Fin cfg0.N) (y : S16x512.Idx) : iblk m c 5 t y = (V m c main_v25 : S16x512.Idx → EReal) y := by
  show (V m c main_v25 : S16x512.Idx → EReal) (((cfg0.win 5).blk t).view.emb y) = _
  refine congrArg _ (funext fun a => Fin.ext ?_)
  obtain ⟨-, -, -, -, -, -, -, -, -, -, e0, e1, -⟩ := idx_facts t
  match a with
  | ⟨0, _⟩ => show win0_5.index t (0 : Fin 2) * 16 + 1 * (y 0).val = (y 0).val; omega
  | ⟨1, _⟩ => show win0_5.index t (1 : Fin 2) * 512 + 1 * (y 1).val = (y 1).val; omega

theorem blk6 (t : Fin cfg0.N) (y : S512x32.Idx) : iblk m c 6 t y = (V m c main_v34 : S512x32.Idx → EReal) y := by
  show (V m c main_v34 : S512x32.Idx → EReal) (((cfg0.win 6).blk t).view.emb y) = _
  refine congrArg _ (funext fun a => Fin.ext ?_)
  obtain ⟨-, -, -, -, -, -, -, -, -, -, -, -, e0, e1, -⟩ := idx_facts t
  match a with
  | ⟨0, _⟩ => show win0_6.index t (0 : Fin 2) * 512 + 1 * (y 0).val = (y 0).val; omega
  | ⟨1, _⟩ => show win0_6.index t (1 : Fin 2) * 32 + 1 * (y 1).val = (y 1).val; omega

/-- WHAT POINT `t` WRITES BACK is block `t` of the network's result. -/
theorem flushed_eq (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S2000x128) hz, View.ld_unit_zero (S := S256x16) hz, View.ld_unit_zero (S := S1x16) hz,
    View.ld_unit_zero (S := S128x512) hz, View.ld_unit_zero (S := S1x512) hz, View.ld_unit_zero (S := S16x512) hz,
    View.ld_unit_zero (S := S512x32) hz]
  funext y
  obtain ⟨p, q, rfl⟩ : ∃ (p : Fin 2000) (q : Fin 32), y = ix2 p q := ⟨y 0, y 1, eq_ix2 y⟩
  have hemb : ((cfg0.win 7).blk t).view.emb (ix2 p q) = ix2 (row t p) q := funext fun a => Fin.ext (by
    obtain ⟨-, -, -, -, -, -, -, -, -, -, -, -, -, -, e0, e1⟩ := idx_facts t
    match a with
    | ⟨0, _⟩ => show win0_7.index t (0 : Fin 2) * 2000 + 1 * p.val = t.val * 2000 + p.val; omega
    | ⟨1, _⟩ => show win0_7.index t (1 : Fin 2) * 32 + 1 * q.val = q.val; omega)
  show k0_pay1 (F := Ideal) (k0_pay2 (F := Ideal) (iblk m c 0 t) (iblk m c 1 t) (iblk m c 2 t) (iblk m c 3 t) (iblk m c 4 t)
      (iblk m c 5 t)) (iblk m c 6 t) (ix2 p q) = result m c (((cfg0.win 7).blk t).view.emb (ix2 p q))
  rw [hemb]
  exact BodyValue.point_value (aX m c) (aC m c) (aWd m c) (aW m c) (aBi m c)
    (iblk m c 0 t) (iblk m c 1 t) (iblk m c 2 t) (iblk m c 3 t) (iblk m c 4 t) (iblk m c 5 t) (iblk m c 6 t)
    (row t p) p q
    (fun d => blk0 m c t p d)
    (fun d r => (blk1 m c t (ix2 (RuleNet.lo d) r)).trans (Tables.antRhs_top m c d r))
    (fun d r => (blk1 m c t (ix2 (RuleNet.hi d) r)).trans (Tables.antRhs_bot m c d r))
    (fun r => (blk2 m c t (ix2 (0 : Fin 1) r)).trans (Tables.kRow m c 0 r))
    (fun d r o => (blk3 m c t (ix2 d (RuleNet.flat r o))).trans (Tables.wT m c d r o))
    (fun r o => (blk4 m c t (ix2 (0 : Fin 1) (RuleNet.flat r o))).trans (Tables.bFlat m c 0 r o))
    (fun r' j => (blk5 m c t (ix2 r' j)).trans (Tables.eTab m c r' j))
    (fun j o => (blk6 m c t (ix2 j o)).trans (Tables.sTab m c j o))

/-- An index of the result array is in point `t`'s block iff each coordinate is in the block's range on its axis. -/
theorem mem_blk (t : Fin cfg0.N) (i : S50000x32.Idx) :
    i ∈ ((cfg0.win 7).blk t).view.set ↔ ∀ a : Fin 2, win0_7.index t a * S2000x32.size a ≤ (i a).val
      ∧ (i a).val < win0_7.index t a * S2000x32.size a + S2000x32.size a := by
  show i ∈ ((View.whole main_v35).slice (win0_7.rect t)).set ↔ _
  rw [View.set_slice_whole, Rect.mem_set_unit]
  exact Iff.rfl

/-- Every index of the result array lies in the block of the point its row number divided by 2000 names. -/
theorem cover (i : S50000x32.Idx) :
    ∃ t : Fin cfg0.N, (cfg0.win 7).flush t = true ∧ i ∈ ((cfg0.win 7).blk t).view.set := by
  have hi0 : (i 0).val < 50000 := (i 0).isLt
  have hi1 : (i 1).val < 32 := (i 1).isLt
  have hlt : (i 0).val / 2000 < cfg0.N := lt_of_lt_of_eq (by omega : (i 0).val / 2000 < 25) N_0.symm
  obtain ⟨-, -, -, -, -, -, -, -, -, -, -, -, -, -, e0, e1⟩ := idx_facts ⟨(i 0).val / 2000, hlt⟩
  have e0' : win0_7.index ⟨(i 0).val / 2000, hlt⟩ (0 : Fin 2) = (i 0).val / 2000 := e0
  refine ⟨⟨(i 0).val / 2000, hlt⟩, flush0_7 _, ?_⟩
  rw [mem_blk]
  intro a
  match a with
  | ⟨0, _⟩ =>
    show win0_7.index ⟨(i 0).val / 2000, hlt⟩ (0 : Fin 2) * 2000 ≤ (i 0).val
      ∧ (i 0).val < win0_7.index ⟨(i 0).val / 2000, hlt⟩ (0 : Fin 2) * 2000 + 2000
    rw [e0']; omega
  | ⟨1, _⟩ =>
    show win0_7.index ⟨(i 0).val / 2000, hlt⟩ (1 : Fin 2) * 32 ≤ (i 1).val
      ∧ (i 1).val < win0_7.index ⟨(i 0).val / 2000, hlt⟩ (1 : Fin 2) * 32 + 32
    rw [e1]; omega

/-- THE RESULT ARRAY after the run is the network's result. -/
theorem final : (dats m 0 c).arrAt 7 cfg0.N = result m c :=
  (dats m 0 c).arrAt_eq_of_cover 7 (result m c) (fun t _ => flushed_eq m c t) cover

/-- The kernel program's run: it ends with the result array at the network's result and the arguments unchanged. -/
theorem run : θ_run defs (onTc (τ := τ) (main (F := Ideal))) ⟨m, fun _ => 0, ρ⟩ fun r => ∀ c : Dev nD,
      r.2.mem ((c : Thread nD τ).loc main_v35) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Blocks

end
-- ==== Proof.RefValue.lean ====
/-
  The reference program's result, read index by index, is the network `RuleNet.G` at the reference's firing strengths.

  The program's 65 operations are read in five stages, each at explicit coordinates (row `b`, rule `r`, output `o`,
  coordinate `d`): the squashed row entry, the firing strength, the softmax weight, a rule's proposed output, and the
  weighted combination squashed once more.  Every layout operation only re-indexes, so each stage is a chain of
  re-indexings followed by the unfolding of the arithmetic.
-/
import proofs.«152940_j33474975105109_2_alg».proof.Proof.Gen.ReferenceIdeal.Read
import proofs.«152940_j33474975105109_2_alg».proof.Proof.Spec
import proofs.«152940_j33474975105109_2_alg».proof.Proof.Consts

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The squashed row entry -/

/-- Operations 0 to 5 at (b, d): 1 / (1 + exp (−x)), the logistic function of the row's entry. -/
theorem v5_at (X : (⟨S50000x128, .f32⟩ : BufTy).Contents (Elt Ideal)) (b : Fin 50000) (d : Fin 128) :
    val_main_v5 (F := Ideal) X (ix2 b d) = RuleNet.xs X b d := by
  rw [val_main_v5_apply, val_main_v4_apply, val_main_cst_0_apply, val_main_v3_apply, val_main_v2_apply,
    val_main_cst_apply, val_main_v1_apply, val_main_v0_apply]
  simp only [Ideal.hostDivf_def, Ideal.ofBits_def, Ideal.addf_def, Ideal.hostUnary_exp_def, Ideal.hostNegf_def,
    Ideal.negf_def, RuleNet.Consts.ofBits_one]
  rfl

/-! ## The firing strength -/

/-- The two broadcasts that spread the squashed rows over the rules read (b, r, d) at (b, d). -/
theorem idx_6_8 (b : Fin 50000) (r : Fin 16) (d : Fin 128) : idx_main_v6 (idx_main_v8 (ix3 b r d)) = ix2 b d :=
  funext fun a => Fin.ext (by match a with | ⟨0, _⟩ => rfl | ⟨1, _⟩ => rfl)

/-- The two broadcasts that spread the centres over the rows read (b, r, d) at (r, d). -/
theorem idx_7_9 (b : Fin 50000) (r : Fin 16) (d : Fin 128) : idx_main_v7 (idx_main_v9 (ix3 b r d)) = ix2 r d :=
  funext fun a => Fin.ext (by match a with | ⟨0, _⟩ => rfl | ⟨1, _⟩ => rfl)

/-- The two broadcasts that spread the widths over the rows read (b, r, d) at (r, d). -/
theorem idx_12_13 (b : Fin 50000) (r : Fin 16) (d : Fin 128) : idx_main_v12 (idx_main_v13 (ix3 b r d)) = ix2 r d :=
  funext fun a => Fin.ext (by match a with | ⟨0, _⟩ => rfl | ⟨1, _⟩ => rfl)

/-- The sum over the coordinates reads (b, r) at (b, r, k). -/
theorem idx_18 (b : Fin 50000) (r : Fin 16) (k : Fin 128) : idx_main_v18 (ix2 b r) k = ix3 b r k :=
  funext fun a => Fin.ext (by match a with | ⟨0, _⟩ => rfl | ⟨1, _⟩ => rfl | ⟨2, _⟩ => rfl)

/-- Operations 6 to 17 at (b, r, d): −½ times the square of |xs − c| / w, the square as the quotient times itself. -/
theorem v17_at (X : (⟨S50000x128, .f32⟩ : BufTy).Contents (Elt Ideal)) (C Wd : (⟨S16x128, .f32⟩ : BufTy).Contents (Elt Ideal))
    (b : Fin 50000) (r : Fin 16) (d : Fin 128) :
    val_main_v17 (F := Ideal) X C Wd (ix3 b r d) =
      Ideal.ofBits .f32 0xBF000000#32 *
        (Ideal.div (max (RuleNet.xs X b d - C (ix2 r d)) (-(RuleNet.xs X b d - C (ix2 r d)))) (Wd (ix2 r d)) *
         Ideal.div (max (RuleNet.xs X b d - C (ix2 r d)) (-(RuleNet.xs X b d - C (ix2 r d)))) (Wd (ix2 r d))) := by
  rw [val_main_v17_apply, val_main_v16_apply, val_main_cst_1_apply, val_main_v15_apply, val_main_v14_apply,
    val_main_v11_apply, val_main_v10_apply, val_main_v8_apply, val_main_v6_apply, val_main_v9_apply, val_main_v7_apply,
    val_main_v13_apply, val_main_v12_apply, idx_6_8, idx_7_9, idx_12_13, v5_at]
  simp only [Ideal.mulf_def, Ideal.ofBits_def, Ideal.hostDivf_def, Ideal.hostAbsf_def, Ideal.absf_def, Ideal.subf_def]

/-- Operations 18 to 20 at (b, r): the reference's firing strength. -/
theorem v20_at (X : (⟨S50000x128, .f32⟩ : BufTy).Contents (Elt Ideal)) (C Wd : (⟨S16x128, .f32⟩ : BufTy).Contents (Elt Ideal))
    (b : Fin 50000) (r : Fin 16) :
    val_main_v20 (F := Ideal) X C Wd (ix2 b r) = RuleNet.fsRef X C Wd b r := by
  rw [val_main_v20_apply, val_main_v19_apply, val_main_cst_3_apply, val_main_v18_apply, val_main_cst_2_apply]
  simp only [idx_18, v17_at, Ideal.hostDivf_def, Ideal.ofBits_def, Ideal.ofBits_zero_f32, zero_add]
  rfl

/-! ## The softmax weight -/

/-- The two broadcasts that spread a per-row number over the rules read (b, r) at b (the row maximum). -/
theorem idx_24_25 (b : Fin 50000) (r : Fin 16) : idx_main_v24 (idx_main_v25 (ix2 b r)) = ix1 b :=
  funext fun a => Fin.ext (by match a with | ⟨0, _⟩ => rfl)

/-- The same two broadcasts for the row's sum of exponentials. -/
theorem idx_29_30 (b : Fin 50000) (r : Fin 16) : idx_main_v29 (idx_main_v30 (ix2 b r)) = ix1 b :=
  funext fun a => Fin.ext (by match a with | ⟨0, _⟩ => rfl)

/-- The sum over the rules reads row b at (b, k). -/
theorem idx_28 (b : Fin 50000) (k : Fin 16) : idx_main_v28 (ix1 b) k = ix2 b k :=
  funext fun a => Fin.ext (by match a with | ⟨0, _⟩ => rfl | ⟨1, _⟩ => rfl)

/-- Row b with rule k put back on the reduced axis is (b, k). -/
theorem lift_21 (h : S50000x16.Reduces [1] S50000) (b : Fin 50000) (k : Fin (S50000x16.size 1)) :
    h.lift (ix1 b) k = ix2 b (⟨k.val, k.isLt⟩ : Fin 16) :=
  funext fun a => Fin.ext (by match a with | ⟨0, _⟩ => rfl | ⟨1, _⟩ => rfl)

/-- Operation 21 at b: the fold of `max` from −∞ over the sixteen firing strengths of the row. -/
theorem v21_at (X : (⟨S50000x128, .f32⟩ : BufTy).Contents (Elt Ideal)) (C Wd : (⟨S16x128, .f32⟩ : BufTy).Contents (Elt Ideal))
    (b : Fin 50000) :
    val_main_v21 (F := Ideal) X C Wd (ix1 b) =
      (Finset.univ : Finset (Fin 16)).fold max (Ideal.ofBits .f32 0xFF800000#32) (RuleNet.fsRef X C Wd b) := by
  unfold val_main_v21
  have h : S50000x16.Reduces [1] S50000 := by decide
  generalize hy : val_main_v20 (F := Ideal) X C Wd = y
  refine (Host.reduce_eq_fold_single (α := Ideal .f32) (FloatOps.maximumf (F := Ideal) (φ := .f32)) y
    (val_main_cst_4 (F := Ideal)) reducesTo_S50000x16_S50000_d1 h h_S_ (ix1 b)).trans ?_
  rw [val_main_cst_4_apply]
  have hf : (y ∘ h.lift (ix1 b)) = RuleNet.fsRef X C Wd b := funext fun k => by
    show y (h.lift (ix1 b) k) = _
    rw [lift_21 h b k, ← hy]
    exact v20_at X C Wd b ⟨k.val, k.isLt⟩
  exact congrArg (fun f => Finset.fold max (Ideal.ofBits .f32 0xFF800000#32) f (Finset.univ : Finset (Fin 16))) hf

/-- Operations 22 and 23 at b: the row's largest firing strength, as `RuleNet.rowMax` spells it. -/
theorem v23_at (X : (⟨S50000x128, .f32⟩ : BufTy).Contents (Elt Ideal)) (C Wd : (⟨S16x128, .f32⟩ : BufTy).Contents (Elt Ideal))
    (b : Fin 50000) :
    val_main_v23 (F := Ideal) X C Wd (ix1 b) = RuleNet.rowMax (RuleNet.fsRef X C Wd b) := by
  rw [val_main_v23_apply, val_main_v22_apply, val_main_cst_5_apply, v21_at]
  simp only [Ideal.maximumf_def, Ideal.ofBits_def]
  rfl

/-- Operations 24 to 27 at (b, r): the exponential of the strength shifted by the row's largest. -/
theorem v27_at (X : (⟨S50000x128, .f32⟩ : BufTy).Contents (Elt Ideal)) (C Wd : (⟨S16x128, .f32⟩ : BufTy).Contents (Elt Ideal))
    (b : Fin 50000) (r : Fin 16) :
    val_main_v27 (F := Ideal) X C Wd (ix2 b r) =
      Ideal.exp (RuleNet.fsRef X C Wd b r - RuleNet.rowMax (RuleNet.fsRef X C Wd b)) := by
  rw [val_main_v27_apply, val_main_v26_apply, val_main_v25_apply, val_main_v24_apply, idx_24_25, v23_at, v20_at]
  simp only [Ideal.hostUnary_exp_def, Ideal.subf_def]

/-- Operations 28 to 31 at (b, r): the softmax weight of rule r on row b. -/
theorem v31_at (X : (⟨S50000x128, .f32⟩ : BufTy).Contents (Elt Ideal)) (C Wd : (⟨S16x128, .f32⟩ : BufTy).Contents (Elt Ideal))
    (b : Fin 50000) (r : Fin 16) :
    val_main_v31 (F := Ideal) X C Wd (ix2 b r) = RuleNet.smax (RuleNet.fsRef X C Wd b) r := by
  rw [val_main_v31_apply, val_main_v30_apply, val_main_v29_apply, idx_29_30, val_main_v28_apply, val_main_cst_6_apply]
  simp only [idx_28, v27_at, Ideal.hostDivf_def, Ideal.ofBits_def, Ideal.ofBits_zero_f32, zero_add]
  rfl

/-! ## A rule's proposed output -/

/-- The contraction reads row b of the input at coordinate k. -/
theorem lidx_32 (b : Fin 50000) (r : Fin 16) (o : Fin 32) (k : Fin 128) : lidx_main_v32 (ix3 b r o) k = ix2 b k :=
  funext fun a => Fin.ext (by match a with | ⟨0, _⟩ => rfl | ⟨1, _⟩ => rfl)

/-- The contraction reads the weights of rule r, output o, at coordinate k. -/
theorem ridx_32 (b : Fin 50000) (r : Fin 16) (o : Fin 32) (k : Fin 128) : ridx_main_v32 (ix3 b r o) k = ix3 r o k :=
  funext fun a => Fin.ext (by match a with | ⟨0, _⟩ => rfl | ⟨1, _⟩ => rfl | ⟨2, _⟩ => rfl)

/-- The two broadcasts that spread the biases over the rows read (b, r, o) at (r, o). -/
theorem idx_33_34 (b : Fin 50000) (r : Fin 16) (o : Fin 32) : idx_main_v33 (idx_main_v34 (ix3 b r o)) = ix2 r o :=
  funext fun a => Fin.ext (by match a with | ⟨0, _⟩ => rfl | ⟨1, _⟩ => rfl)

/-- Operations 32 to 41 at (b, r, o): the logistic function of the row's product with the rule's weights plus the bias. -/
theorem v41_at (X : (⟨S50000x128, .f32⟩ : BufTy).Contents (Elt Ideal)) (W : (⟨S16x32x128, .f32⟩ : BufTy).Contents (Elt Ideal))
    (Bi : (⟨S16x32, .f32⟩ : BufTy).Contents (Elt Ideal)) (b : Fin 50000) (r : Fin 16) (o : Fin 32) :
    val_main_v41 (F := Ideal) X W Bi (ix3 b r o) = RuleNet.cq X W Bi b r o := by
  rw [val_main_v41_apply, val_main_v40_apply, val_main_cst_8_apply, val_main_v39_apply, val_main_v38_apply,
    val_main_cst_7_apply, val_main_v37_apply, val_main_v36_apply, val_main_v35_apply, val_main_v34_apply,
    val_main_v33_apply, idx_33_34, val_main_v32_apply]
  simp only [lidx_32, ridx_32, Ideal.hostDivf_def, Ideal.ofBits_def, Ideal.addf_def, Ideal.hostUnary_exp_def,
    Ideal.hostNegf_def, Ideal.negf_def, RuleNet.Consts.ofBits_one]
  rfl

/-! ## The result -/

/-- The two broadcasts that spread the weights over the outputs read (b, r, o) at (b, r). -/
theorem idx_42_43 (b : Fin 50000) (r : Fin 16) (o : Fin 32) : idx_main_v42 (idx_main_v43 (ix3 b r o)) = ix2 b r :=
  funext fun a => Fin.ext (by match a with | ⟨0, _⟩ => rfl | ⟨1, _⟩ => rfl)

/-- The sum over the rules reads (b, o) at (b, k, o). -/
theorem idx_45 (b : Fin 50000) (o : Fin 32) (k : Fin 16) : idx_main_v45 (ix2 b o) k = ix3 b k o :=
  funext fun a => Fin.ext (by match a with | ⟨0, _⟩ => rfl | ⟨1, _⟩ => rfl | ⟨2, _⟩ => rfl)

/-- Operations 42 to 44 at (b, r, o): rule r's proposal times its weight. -/
theorem v44_at (X : (⟨S50000x128, .f32⟩ : BufTy).Contents (Elt Ideal)) (C Wd : (⟨S16x128, .f32⟩ : BufTy).Contents (Elt Ideal))
    (W : (⟨S16x32x128, .f32⟩ : BufTy).Contents (Elt Ideal)) (Bi : (⟨S16x32, .f32⟩ : BufTy).Contents (Elt Ideal))
    (b : Fin 50000) (r : Fin 16) (o : Fin 32) :
    val_main_v44 (F := Ideal) X C Wd W Bi (ix3 b r o) =
      RuleNet.cq X W Bi b r o * RuleNet.smax (RuleNet.fsRef X C Wd b) r := by
  rw [val_main_v44_apply, val_main_v43_apply, val_main_v42_apply, idx_42_43, v41_at, v31_at]
  simp only [Ideal.mulf_def]

/-- Operations 45 to 51 at (b, o): the logistic function of the weighted sum of the sixteen proposals. -/
theorem v51_at (X : (⟨S50000x128, .f32⟩ : BufTy).Contents (Elt Ideal)) (C Wd : (⟨S16x128, .f32⟩ : BufTy).Contents (Elt Ideal))
    (W : (⟨S16x32x128, .f32⟩ : BufTy).Contents (Elt Ideal)) (Bi : (⟨S16x32, .f32⟩ : BufTy).Contents (Elt Ideal))
    (b : Fin 50000) (o : Fin 32) :
    val_main_v51 (F := Ideal) X C Wd W Bi (ix2 b o) =
      Ideal.logistic (∑ r : Fin 16, RuleNet.cq X W Bi b r o * RuleNet.smax (RuleNet.fsRef X C Wd b) r) := by
  rw [val_main_v51_apply, val_main_v50_apply, val_main_cst_11_apply, val_main_v49_apply, val_main_v48_apply,
    val_main_cst_10_apply, val_main_v47_apply, val_main_v46_apply, val_main_v45_apply, val_main_cst_9_apply]
  simp only [idx_45, v44_at, Ideal.hostDivf_def, Ideal.ofBits_def, Ideal.addf_def, Ideal.hostUnary_exp_def,
    Ideal.hostNegf_def, Ideal.negf_def, RuleNet.Consts.ofBits_one, Ideal.ofBits_zero_f32, zero_add]
  rfl

/-- The reference program's result is the network at the reference's firing strengths. -/
theorem ref_is_G (X : (⟨S50000x128, .f32⟩ : BufTy).Contents (Elt Ideal)) (C Wd : (⟨S16x128, .f32⟩ : BufTy).Contents (Elt Ideal))
    (W : (⟨S16x32x128, .f32⟩ : BufTy).Contents (Elt Ideal)) (Bi : (⟨S16x32, .f32⟩ : BufTy).Contents (Elt Ideal)) :
    Cert.ReferenceIdeal.Read.val_main_v51 (F := Ideal) X C Wd W Bi = RuleNet.G (RuleNet.fsRef X C Wd) X W Bi := by
  funext i
  obtain ⟨b, o, rfl⟩ : ∃ (b : Fin 50000) (o : Fin 32), i = ix2 b o := ⟨i 0, i 1, eq_ix2 i⟩
  rw [v51_at, RuleNet.G_ix2]

end Cert.ReferenceIdeal.RefValue

end
-- ==== Proof.LibFiniteReal.lean ====
/-
  An array of extended reals every entry of which has absolute value below +∞ is an array of real numbers.

  A "finite inputs" precondition is printed, per float array, as: the absolute value entry by entry, compared (ordered
  less-than) against the broadcast word of +∞, and the comparison bits joined by `and` over all axes starting from 1.
  `real_of_abs_lt_inf` is the fact at one entry: an extended real `x` with `max x (-x) < ⊤` is neither `⊤` nor `⊥`, hence
  a real number.  `all_real` is the fact for one array of ANY shape: if that conjunction is 1, every entry is a real
  number (the entry is read at a symbolic index; nothing is evaluated over the index set).  Imports only the library.
-/
import Idealize.ShloMosaic.Lib.ValueIdx
import Idealize.ShloMosaic.Lib.ReduceAll
import Idealize.ShloMosaic.PureOps.Ideal.Laws

noncomputable section

namespace FiniteReal

open Idealize.ShloMosaic

/-- The rank-0 shape has exactly one index (a function out of the empty set of axes). -/
instance subsingleton_scalar_idx : Subsingleton (⟨0, ![]⟩ : Shape).Idx := ⟨fun _ _ => funext fun d => d.elim0⟩

/-- The word `0x7F800000` denotes `+∞` at f32. -/
theorem ofBits_inf : Ideal.ofBits .f32 0x7F800000#32 = (⊤ : EReal) := by simp [Ideal.ofBits, Ideal.ieee]

/-- A one-bit word built from a Boolean is 1 exactly when the Boolean is true. -/
theorem ofBool_eq_one (b : Bool) : BitVec.ofBool b = 1#1 ↔ b = true := by cases b <;> decide

/-- THE ELEMENT FACT: an extended real `x` with `|x| < +∞` (the comparison the predicate makes at one entry) is a
    real number: `x = ⊥` gives `|x| = max ⊥ ⊤ = ⊤`, `x = ⊤` gives `|x| = ⊤`, neither below `⊤`. -/
theorem real_of_abs_lt_inf (x : EReal)
    (hx : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  change Ideal.cmp .olt (max x (-x)) (Ideal.ofBits .f32 0x7F800000#32) = 1#1 at hx
  rw [ofBits_inf] at hx
  unfold Ideal.cmp at hx
  rw [ofBool_eq_one] at hx
  have hlt : max x (-x) < ⊤ := of_decide_eq_true hx
  rw [max_lt_iff] at hlt
  induction x using EReal.rec with
  | bot => exact absurd hlt.2 (by simp)
  | coe r => exact ⟨r, rfl⟩
  | top => exact absurd hlt.1 (by simp)

/-- ONE ARRAY: if the conjunction over all entries of `|a j| < +∞` (a reduction by `and` over all axes, from 1, of
    the entrywise comparison against the broadcast `+∞`) is 1, every entry of `a` is a real number. Generic in the
    array's shape: the entry is read at a symbolic index. -/
theorem all_real {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel) (a : FVec Ideal s .f32)
    (i : (⟨0, ![]⟩ : Shape).Idx)
    (e : Host.reduce IntOp.andi
        (cmpf .olt (Host.absf a)
          (broadcastInDim s ![] hb (constant (F := Ideal) (⟨0, ![]⟩ : Shape) .f32 0x7F800000#32)))
        (constantI (⟨0, ![]⟩ : Shape) 1 1#1) hr hu i = 1#1) :
    ∀ j, ∃ r : ℝ, a j = (r : EReal) := fun j =>
  real_of_abs_lt_inf (a j) (Host.reduce_andi_all _ _ hr hu i e j)

end FiniteReal

end
-- ==== Proof.PreReal.lean ====
/-
  What the precondition says of the kernel program's argument arrays: the input rows, the centres and the widths are
  arrays of real numbers, and no width is zero.

  The precondition is one bit: the conjunction of six bits, each the conjunction over all entries of one array of an
  entrywise comparison.  Five of them compare the absolute value of a float array's entry (ordered less-than) with +∞;
  the sixth compares a width (unordered not-equal) with the zero word.  The bit being 1, each of the six is 1, hence
  each comparison is 1 at every entry: an extended real of absolute value below +∞ is a real number, and a width
  that compares not-equal to 0 is not 0.  The facts are first stated for five arbitrary arrays (`of_fn`), then read at
  the arrays the launch memory holds (`of_pre`).
-/
import proofs.«152940_j33474975105109_2_alg».proof.Defs
import proofs.«152940_j33474975105109_2_alg».proof.Proof.Gen.Pre_finite_inputs
import proofs.«152940_j33474975105109_2_alg».proof.Proof.KArgs
import proofs.«152940_j33474975105109_2_alg».proof.Proof.LibFiniteReal

noncomputable section

namespace Cert.KernelIdeal.PreReal

open Cert.KernelIdeal Cert.KernelIdeal.Gen Idealize.ShloMosaic Idealize.ShloMosaic.TcCoe Idealize.SL.Sem
open Cert.KernelIdeal.Args

/-- A width whose comparison (not-equal) with the zero word is 1 is not zero. -/
theorem ne_zero_of_une (x : EReal)
    (hx : FloatOps.cmpf (F := Ideal) (φ := .f32) .une x (FloatOps.ofBits (F := Ideal) .f32 0x00000000#32) = 1#1) :
    x ≠ 0 := by
  change Ideal.cmp .une x (Ideal.ofBits .f32 0x00000000#32) = 1#1 at hx
  rw [Ideal.ofBits_zero_f32] at hx
  unfold Ideal.cmp at hx
  rw [FiniteReal.ofBool_eq_one] at hx
  exact of_decide_eq_true hx

/-- The predicate's bit being 1 on five arrays: the first three are arrays of real numbers and the third has no zero. -/
theorem of_fn (a0 : FVec Ideal Cert.Pre_finite_inputs.S50000x128 .f32)
    (a1 a2 : FVec Ideal Cert.Pre_finite_inputs.S16x128 .f32)
    (a3 : FVec Ideal Cert.Pre_finite_inputs.S16x32x128 .f32) (a4 : FVec Ideal Cert.Pre_finite_inputs.S16x32 .f32)
    (h : Cert.Pre_finite_inputs.fn (F := Ideal) a0 a1 a2 a3 a4 = fun _ => 1#1) :
    (∀ i, ∃ x : ℝ, a0 i = (x : EReal)) ∧ (∀ i, ∃ x : ℝ, a1 i = (x : EReal))
      ∧ (∀ i, ∃ x : ℝ, a2 i = (x : EReal)) ∧ (∀ i, a2 i ≠ 0) := by
  have h0 := congrFun h ValueIdx.ix0
  dsimp only [Cert.Pre_finite_inputs.fn, Cert.Pre_finite_inputs.fn_part1, andi] at h0
  rw [IntOp.andi_eq_one, IntOp.andi_eq_one, IntOp.andi_eq_one, IntOp.andi_eq_one, IntOp.andi_eq_one] at h0
  obtain ⟨⟨⟨⟨⟨h3, h7⟩, h12⟩, _⟩, _⟩, h26⟩ := h0
  refine ⟨?_, ?_, ?_, ?_⟩
  · exact FiniteReal.all_real _ _ _ a0 ValueIdx.ix0 h3
  · exact FiniteReal.all_real _ _ _ a1 ValueIdx.ix0 h7
  · exact FiniteReal.all_real _ _ _ a2 ValueIdx.ix0 h12
  · exact fun j => ne_zero_of_une (a2 j) (Host.reduce_andi_all _ _ _ _ ValueIdx.ix0 h26 j)

theorem of_pre (m : (ℓ : Loc nD τ sig) → Buf (Elt Ideal) ℓ)
    (hpre : Cert.Pre_KernelIdeal (hPre_finite_inputs := Cert.Pre_finite_inputs.Gen.facts) m) (c : Dev nD) :
    (∀ i, ∃ x : ℝ, aX m c i = (x : EReal)) ∧ (∀ i, ∃ x : ℝ, aC m c i = (x : EReal))
      ∧ (∀ i, ∃ x : ℝ, aWd m c i = (x : EReal)) ∧ (∀ i, aWd m c i ≠ 0) :=
  of_fn _ _ _ _ _ (hpre c)

end Cert.KernelIdeal.PreReal

end
-- ==== Proof.LibRealSums.lean ====
/-
  Finite sums of real numbers, read on the extended reals.

  Coercion from the reals to the extended reals commutes with a finite sum (`coe_sum_real`: by induction on the index
  set, the coercion being additive), and a finite sum of products of extended reals each of which is a real number is the
  coercion of the real sum of the real products (`sum_mul_of_real`).  With these a computation on extended reals whose
  inputs are all finite can be carried out in the reals, where a factor moves across a sum and a nonzero divisor cancels.
-/
import Mathlib.Data.EReal.Operations
import Mathlib.Algebra.BigOperators.Fin

open scoped BigOperators

namespace RealSums

/-- A finite sum of real numbers, read on the extended reals, is the sum of the readings. -/
theorem coe_sum_real {ι : Type*} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A finite sum of products of entries that are real numbers is the real sum of the real products. -/
theorem sum_mul_of_real {ι : Type*} [Fintype ι] (A B : ι → EReal) (a b : ι → ℝ)
    (hA : ∀ i, A i = (a i : EReal)) (hB : ∀ i, B i = (b i : EReal)) :
    ∑ i, A i * B i = ((∑ i, a i * b i : ℝ) : EReal) := by
  rw [coe_sum_real]
  exact Finset.sum_congr rfl (fun i _ => by rw [hA, hB, EReal.coe_mul])

end RealSums
-- ==== Proof.LawStrength.lean ====
/-
  The two spellings of a rule's firing strength agree when every entry is a real number and no width is zero.

  With `s` the logistic of a real (a real), `c` real and `w` a nonzero real, every term of either sum is a real number:
  division by a nonzero real is the product with the reciprocal, the float words are the reals −1/2, 128, 1, −2 and
  −1/256, and `max a (−a)` is `|a|`.  A sum of real numbers read on the extended reals is the reading of the real sum, so
  both sides are readings of real numbers, and over the reals

    (Σ_d (−1/2) ((|s − c| / w) (|s − c| / w))) / 128
      = (−1/256) ((Σ_d (s s) (1/(w w)) + Σ_d s (−2 (c (1/(w w))))) + Σ_d (c c) (1/(w w)))

  term by term: |a| |a| = a a, and the square of the difference expands.
-/
import proofs.«152940_j33474975105109_2_alg».proof.Proof.Spec
import proofs.«152940_j33474975105109_2_alg».proof.Proof.Consts
import proofs.«152940_j33474975105109_2_alg».proof.Proof.LibRealSums

noncomputable section

open scoped BigOperators

namespace RuleNet

open Idealize.ShloMosaic Idealize.ShloMosaic.ValueIdx

/-- On the reals read as extended reals, the larger of `a` and `−a` is `|a|`. -/
theorem max_neg_coe (a : ℝ) : max (a : EReal) (-(a : EReal)) = ((|a| : ℝ) : EReal) := by
  rw [← EReal.coe_neg, abs_eq_max_neg]
  exact (EReal.coe_strictMono.monotone.map_max).symm

/-- One term of the sum as written: a real number. -/
theorem refTerm_coe (s c w : ℝ) (hw : w ≠ 0) :
    Ideal.ofBits .f32 0xBF000000#32 *
      (Ideal.div (max ((s : EReal) - (c : EReal)) (-((s : EReal) - (c : EReal)))) (w : EReal) *
       Ideal.div (max ((s : EReal) - (c : EReal)) (-((s : EReal) - (c : EReal)))) (w : EReal))
    = (((-(1 / 2)) * ((|s - c| * (1 / w)) * (|s - c| * (1 / w))) : ℝ) : EReal) := by
  rw [Consts.ofBits_mhalf, ← EReal.coe_sub, max_neg_coe, Ideal.div_coe hw, ← EReal.coe_mul, ← EReal.coe_mul,
    ← EReal.coe_mul]

/-- The reciprocal of the squared width: a real number. -/
theorem iw2_coe (w : ℝ) (hw : w ≠ 0) :
    Ideal.div (Ideal.ofBits .f32 0x3F800000#32) ((w : EReal) * (w : EReal)) = (((1 : ℝ) * (1 / (w * w)) : ℝ) : EReal) := by
  rw [Consts.ofBits_one_coe, ← EReal.coe_mul, Ideal.div_coe (mul_ne_zero hw hw), ← EReal.coe_mul]

/-- The identity over the reals, one coordinate at a time. -/
theorem term_real (s c w : ℝ) :
    (-(1 / 2)) * ((|s - c| * (1 / w)) * (|s - c| * (1 / w))) * (1 / 128)
      = (-(1 / 256)) * (((s * s) * (1 * (1 / (w * w))) + s * (-2 * (c * (1 * (1 / (w * w))))))
          + (c * c) * (1 * (1 / (w * w)))) := by
  have h2 : |s - c| * |s - c| = (s - c) * (s - c) := abs_mul_abs_self _
  have e : (-(1 / 2)) * ((|s - c| * (1 / w)) * (|s - c| * (1 / w))) * (1 / 128)
      = (-(1 / 256)) * ((|s - c| * |s - c|) * (1 / (w * w))) := by ring
  rw [e, h2]; ring

/-- The identity over the reals. -/
theorem sum_real (s c w : Fin 128 → ℝ) :
    (∑ d, (-(1 / 2)) * ((|s d - c d| * (1 / w d)) * (|s d - c d| * (1 / w d)))) * (1 / 128)
      = (-(1 / 256)) * (((∑ d, (s d * s d) * (1 * (1 / (w d * w d))))
          + ∑ d, s d * (-2 * (c d * (1 * (1 / (w d * w d))))))
          + ∑ d, (c d * c d) * (1 * (1 / (w d * w d)))) := by
  rw [← Finset.sum_add_distrib, ← Finset.sum_add_distrib, Finset.sum_mul, Finset.mul_sum]
  exact Finset.sum_congr rfl (fun d _ => term_real (s d) (c d) (w d))

theorem fsRef_eq_fsKer (X : SX.Idx → EReal) (C Wd : SC.Idx → EReal)
    (hX : ∀ i, ∃ x : ℝ, X i = (x : EReal)) (hC : ∀ i, ∃ x : ℝ, C i = (x : EReal))
    (hW : ∀ i, ∃ x : ℝ, Wd i = (x : EReal)) (hW0 : ∀ i, Wd i ≠ 0) (b : Fin 50000) (r : Fin 16) :
    fsRef X C Wd b r = fsKer X C Wd b r := by
  choose x hx using hX
  choose c hc using hC
  choose w hw using hW
  have hw0 : ∀ i, w i ≠ 0 := fun i h => hW0 i (by rw [hw i, h]; rfl)
  -- the squashed coordinates, the centres and the widths of this row and rule, as real numbers
  let s : Fin 128 → ℝ := fun d => (1 + Real.exp (-(x (ix2 b d))))⁻¹
  let cr : Fin 128 → ℝ := fun d => c (ix2 r d)
  let wr : Fin 128 → ℝ := fun d => w (ix2 r d)
  have hs : ∀ d, xs X b d = ((s d : ℝ) : EReal) := fun d => by
    show Ideal.logistic (X (ix2 b d)) = _
    rw [hx, Ideal.logistic_coe]
  have hcr : ∀ d, C (ix2 r d) = ((cr d : ℝ) : EReal) := fun d => hc _
  have hwr : ∀ d, Wd (ix2 r d) = ((wr d : ℝ) : EReal) := fun d => hw _
  have hwr0 : ∀ d, wr d ≠ 0 := fun d => hw0 _
  have hiw : ∀ d, iw2 Wd r d = (((1 : ℝ) * (1 / (wr d * wr d)) : ℝ) : EReal) := fun d => by
    show Ideal.div _ (Wd (ix2 r d) * Wd (ix2 r d)) = _
    rw [hwr, iw2_coe _ (hwr0 d)]
  -- the sum as written
  have hL : (∑ d : Fin 128, Ideal.ofBits .f32 0xBF000000#32 *
      (Ideal.div (max (xs X b d - C (ix2 r d)) (-(xs X b d - C (ix2 r d)))) (Wd (ix2 r d)) *
       Ideal.div (max (xs X b d - C (ix2 r d)) (-(xs X b d - C (ix2 r d)))) (Wd (ix2 r d))))
      = ((∑ d, (-(1 / 2)) * ((|s d - cr d| * (1 / wr d)) * (|s d - cr d| * (1 / wr d))) : ℝ) : EReal) := by
    rw [RealSums.coe_sum_real]
    exact Finset.sum_congr rfl (fun d _ => by rw [hs, hcr, hwr, refTerm_coe _ _ _ (hwr0 d)])
  -- the three sums of the expanded square
  have hA : (∑ d : Fin 128, (xs X b d * xs X b d) * iw2 Wd r d)
      = ((∑ d, (s d * s d) * (1 * (1 / (wr d * wr d))) : ℝ) : EReal) := by
    rw [RealSums.coe_sum_real]
    exact Finset.sum_congr rfl (fun d _ => by rw [hs, hiw, ← EReal.coe_mul, ← EReal.coe_mul])
  have hB : (∑ d : Fin 128, xs X b d * (Ideal.ofBits .f32 0xC0000000#32 * (C (ix2 r d) * iw2 Wd r d)))
      = ((∑ d, s d * (-2 * (cr d * (1 * (1 / (wr d * wr d))))) : ℝ) : EReal) := by
    rw [RealSums.coe_sum_real]
    exact Finset.sum_congr rfl (fun d _ => by
      rw [hs, hcr, hiw, Consts.ofBits_mtwo, ← EReal.coe_mul, ← EReal.coe_mul, ← EReal.coe_mul])
  have hD : (∑ d : Fin 128, (C (ix2 r d) * C (ix2 r d)) * iw2 Wd r d)
      = ((∑ d, (cr d * cr d) * (1 * (1 / (wr d * wr d))) : ℝ) : EReal) := by
    rw [RealSums.coe_sum_real]
    exact Finset.sum_congr rfl (fun d _ => by rw [hcr, hiw, ← EReal.coe_mul, ← EReal.coe_mul])
  unfold fsRef fsKer
  rw [hL, hA, hB, hD, Consts.ofBits_128, Consts.ofBits_minv256,
    Ideal.div_coe (by norm_num : (128 : ℝ) ≠ 0), ← EReal.coe_mul, ← EReal.coe_add, ← EReal.coe_add, ← EReal.coe_mul]
  exact congrArg _ (sum_real s cr wr)

end RuleNet

end
-- ==== Proof.lean ====
/-
  The certificate of a network of sixteen fuzzy rules: a kernel that computes the rules' firing strengths through an
  expanded square against the plain formulation.

  Both programs map an input row `x` to  logistic( Σ_r  softmax_r(fs) · logistic(W_r x + b_r) ), where `fs r` is the
  firing strength of rule `r` on the logistic-squashed row `s`.  The reference computes  fs r = mean_d −½ (|s_d − c_rd| / w_rd)².
  The kernel program precomputes  iw2 = 1 / (w · w)  and  k_r = Σ_d c_rd² iw2_rd  on the host, and its kernel computes
  fs r = −1/256 · ( [s², s] · [iw2 ; −2 c iw2] + k_r )  as one product over 256 positions; it also spreads the softmax weights
  over 16 × 32 positions and folds the weighted proposals back onto the 32 outputs with two constant tables of zeros and
  ones.  On the extended reals the spreading and the folding are exact (only products with 0 and 1 and a re-indexing of
  a finite sum), the logistic function, the softmax and the products are the same functions on both sides, and the
  two firing strengths agree when every entry is a real number and no width is zero: the square expands and the
  reciprocal of `w · w` is `(1/w)²`.  At a zero width they disagree (`1 / 0 = ⊤` makes the kernel's sum `⊤ + ⊥`), which is
  why the precondition says, beside "every input is finite", that no width is zero: the domain of the reference's own
  division `|s − c| / w`.

  The modules: Spec (the network as one function `G` of a firing-strength function, and the two firing strengths), LawStrength (the
  two firing strengths agree), LawTables (the two tables' spreading and folding), BodyValue (the kernel body at an entry), TablesFloat
  and TablesUnit (what the host part puts in the six tables), Blocks (from the kernel's blocks to the result array), RefValue (the
  reference's result is `G`), PreReal (what the precondition says of the arrays).  The three frames are the generated ones; the
  idealization rewrote nothing, so it preserves the kernel trivially.
-/
import proofs.«152940_j33474975105109_2_alg».proof.Defs
import proofs.«152940_j33474975105109_2_alg».proof.Proof.Gen.Kernel
import proofs.«152940_j33474975105109_2_alg».proof.Proof.Gen.Kernel.Frame
import proofs.«152940_j33474975105109_2_alg».proof.Proof.Gen.KernelIdeal
import proofs.«152940_j33474975105109_2_alg».proof.Proof.Gen.KernelIdeal.Frame
import proofs.«152940_j33474975105109_2_alg».proof.Proof.Gen.KernelIdeal.Value
import proofs.«152940_j33474975105109_2_alg».proof.Proof.Gen.ReferenceIdeal
import proofs.«152940_j33474975105109_2_alg».proof.Proof.Gen.ReferenceIdeal.Run
import proofs.«152940_j33474975105109_2_alg».proof.Proof.Gen.ReferenceIdeal.Read
import proofs.«152940_j33474975105109_2_alg».proof.Proof.Gen.Pre_finite_inputs
import proofs.«152940_j33474975105109_2_alg».proof.Proof.Blocks
import proofs.«152940_j33474975105109_2_alg».proof.Proof.RefValue
import proofs.«152940_j33474975105109_2_alg».proof.Proof.PreReal
import proofs.«152940_j33474975105109_2_alg».proof.Proof.LawStrength
import Idealize.ShloMosaic.Adequacy
import Idealize.ShloMosaic.Init

noncomputable section

namespace Cert.Proof

open Idealize.ShloMosaic Idealize.SL.Sem

/-- The kernel program as printed runs and leaves its arguments unchanged: the generated frame. -/
theorem frame_p : Cert.frame_Kernel := fun m ρ _ => Cert.Kernel.Gen.frame m ρ

/-- The idealized kernel program runs and leaves its arguments unchanged: the generated frame. -/
theorem frame_pi : Cert.frame_KernelIdeal := fun m ρ _ => Cert.KernelIdeal.Gen.frame m ρ

/-- The idealized reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel program ends with its result array at the network's result with the expanded
    firing strengths, the reference with the plain ones, and under the precondition the two firing strengths agree. -/
theorem algebraic : Cert.algebraic_KernelIdeal_ReferenceIdeal := by
  intro m ρ m' ρ' hpre hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2.1, (hagree c).2.2.1, (hagree c).2.2.2.1,
    (hagree c).2.2.2.2, Cert.ReferenceIdeal.RefValue.ref_is_G]
  obtain ⟨hX, hC, hW, hW0⟩ := Cert.KernelIdeal.PreReal.of_pre m hpre c
  exact RuleNet.G_congr (fun b r => RuleNet.fsRef_eq_fsKer _ _ _ hX hC hW hW0 b r) _ _ _

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
